-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S150000x11 : Shape := ⟨2, ![150000, 11]⟩
abbrev S4x11 : Shape := ⟨2, ![4, 11]⟩
abbrev S11 : Shape := ⟨1, ![11]⟩
abbrev S11x512 : Shape := ⟨2, ![11, 512]⟩
abbrev S512 : Shape := ⟨1, ![512]⟩
abbrev S512x1024 : Shape := ⟨2, ![512, 1024]⟩
abbrev S1024 : Shape := ⟨1, ![1024]⟩
abbrev S1024x2048 : Shape := ⟨2, ![1024, 2048]⟩
abbrev S2048 : Shape := ⟨1, ![2048]⟩
abbrev S2048x1 : Shape := ⟨2, ![2048, 1]⟩
abbrev S1 : Shape := ⟨1, ![1]⟩
abbrev S2048x1000 : Shape := ⟨2, ![2048, 1000]⟩
abbrev S1000 : Shape := ⟨1, ![1000]⟩
abbrev S150000 : Shape := ⟨1, ![150000]⟩
abbrev S_ : Shape := ⟨0, ![]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S150000x11 : S_.BroadcastsInDim S150000x11 (![] : Fin 0 → Fin S150000x11.rank)
  reducesTo_S150000x11_S_d0_1 : S150000x11.ReducesTo [0, 1] S_
  bcast_S_S4x11 : S_.BroadcastsInDim S4x11 (![] : Fin 0 → Fin S4x11.rank)
  reducesTo_S4x11_S_d0_1 : S4x11.ReducesTo [0, 1] S_
  bcast_S_S11 : S_.BroadcastsInDim S11 (![] : Fin 0 → Fin S11.rank)
  reducesTo_S11_S_d0 : S11.ReducesTo [0] S_
  bcast_S_S11x512 : S_.BroadcastsInDim S11x512 (![] : Fin 0 → Fin S11x512.rank)
  reducesTo_S11x512_S_d0_1 : S11x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x1 : S_.BroadcastsInDim S2048x1 (![] : Fin 0 → Fin S2048x1.rank)
  reducesTo_S2048x1_S_d0_1 : S2048x1.ReducesTo [0, 1] S_
  bcast_S_S1 : S_.BroadcastsInDim S1 (![] : Fin 0 → Fin S1.rank)
  reducesTo_S1_S_d0 : S1.ReducesTo [0] S_
  bcast_S_S2048x1000 : S_.BroadcastsInDim S2048x1000 (![] : Fin 0 → Fin S2048x1000.rank)
  reducesTo_S2048x1000_S_d0_1 : S2048x1000.ReducesTo [0, 1] S_
  bcast_S_S1000 : S_.BroadcastsInDim S1000 (![] : Fin 0 → Fin S1000.rank)
  reducesTo_S1000_S_d0 : S1000.ReducesTo [0] S_

variable [Facts]

def fn_part4 {F : FTy → Type} [FloatOps F] (main_arg14 : FVec F S2048x1000 .f32) (main_arg15 : FVec F S1000 .f32) (main_v63 : IVec S_ 1) (main_v67 : IVec S_ 1) : IVec S_ 1 :=
  let main_v68 : IVec S_ 1 := andi main_v63 main_v67
  let main_v69 : FVec F S2048x1000 .f32 := Host.absf main_arg14
  let main_cst_26 : FVec F S_ .f32 := constant S_ .f32 0x7F800000#32
  let main_v70 : FVec F S2048x1000 .f32 := broadcastInDim S2048x1000 ![] bcast_S_S2048x1000 main_cst_26
  let main_v71 : IVec S2048x1000 1 := cmpf .olt main_v69 main_v70
  let main_c_27 : IVec S_ 1 := constantI S_ 1 1#1
  let main_v72 : IVec S_ 1 := (fun x v => Host.reduce IntOp.andi x v reducesTo_S2048x1000_S_d0_1 h_S_) main_v71 main_c_27
  let main_v73 : IVec S_ 1 := andi main_v68 main_v72
  let main_v74 : FVec F S1000 .f32 := Host.absf main_arg15
  let main_cst_28 : FVec F S_ .f32 := constant S_ .f32 0x7F800000#32
  let main_v75 : FVec F S1000 .f32 := broadcastInDim S1000 ![] bcast_S_S1000 main_cst_28
  let main_v76 : IVec S1000 1 := cmpf .olt main_v74 main_v75
  let main_c_29 : IVec S_ 1 := constantI S_ 1 1#1
  let main_v77 : IVec S_ 1 := (fun x v => Host.reduce IntOp.andi x v reducesTo_S1000_S_d0 h_S_) main_v76 main_c_29
  let main_v78 : IVec S_ 1 := andi main_v73 main_v77
  main_v78

def fn_part3 {F : FTy → Type} [FloatOps F] (main_arg11 : FVec F S1 .f32) (main_arg12 : FVec F S1024x2048 .f32) (main_arg13 : FVec F S2048 .f32) (main_arg14 : FVec F S2048x1000 .f32) (main_arg15 : FVec F S1000 .f32) (main_v48 : IVec S_ 1) (main_v49 : FVec F S2048x1 .f32) (main_v50 : FVec F S2048x1 .f32) : IVec S_ 1 :=
  let main_v51 : IVec S2048x1 1 := cmpf .olt main_v49 main_v50
  let main_c_19 : IVec S_ 1 := constantI S_ 1 1#1
  let main_v52 : IVec S_ 1 := (fun x v => Host.reduce IntOp.andi x v reducesTo_S2048x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S1024x2048 .f32 := Host.absf main_arg12
  let main_cst_22 : FVec F S_ .f32 := constant S_ .f32 0x7F800000#32
  let main_v60 : FVec F S1024x2048 .f32 := broadcastInDim S1024x2048 ![] bcast_S_S1024x2048 main_cst_22
  let main_v61 : IVec S1024x2048 1 := cmpf .olt main_v59 main_v60
  let main_c_23 : IVec S_ 1 := constantI S_ 1 1#1
  let main_v62 : IVec S_ 1 := (fun x v => Host.reduce IntOp.andi x v reducesTo_S1024x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_v63 main_v67

def fn_part2 {F : FTy → Type} [FloatOps F] (main_arg7 : FVec F S1024 .f32) (main_arg8 : FVec F S1024x2048 .f32) (main_arg9 : FVec F S2048 .f32) (main_arg10 : FVec F S2048x1 .f32) (main_arg11 : FVec F S1 .f32) (main_arg12 : FVec F S1024x2048 .f32) (main_arg13 : FVec F S2048 .f32) (main_arg14 : FVec F S2048x1000 .f32) (main_arg15 : FVec F S1000 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x2048 .f32 := Host.absf main_arg8
  let main_cst_14 : FVec F S_ .f32 := constant S_ .f32 0x7F800000#32
  let main_v40 : FVec F S1024x2048 .f32 := broadcastInDim S1024x2048 ![] bcast_S_S1024x2048 main_cst_14
  let main_v41 : IVec S1024x2048 1 := cmpf .olt main_v39 main_v40
  let main_c_15 : IVec S_ 1 := constantI S_ 1 1#1
  let main_v42 : IVec S_ 1 := (fun x v => Host.reduce IntOp.andi x v reducesTo_S1024x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x1 .f32 := Host.absf main_arg10
  let main_cst_18 : FVec F S_ .f32 := constant S_ .f32 0x7F800000#32
  let main_v50 : FVec F S2048x1 .f32 := broadcastInDim S2048x1 ![] bcast_S_S2048x1 main_cst_18
  fn_part3 (F := F) main_arg11 main_arg12 main_arg13 main_arg14 main_arg15 main_v48 main_v49 main_v50

def fn_part1 {F : FTy → Type} [FloatOps F] (main_arg4 : FVec F S11x512 .f32) (main_arg5 : FVec F S512 .f32) (main_arg6 : FVec F S512x1024 .f32) (main_arg7 : FVec F S1024 .f32) (main_arg8 : FVec F S1024x2048 .f32) (main_arg9 : FVec F S2048 .f32) (main_arg10 : FVec F S2048x1 .f32) (main_arg11 : FVec F S1 .f32) (main_arg12 : FVec F S1024x2048 .f32) (main_arg13 : FVec F S2048 .f32) (main_arg14 : FVec F S2048x1000 .f32) (main_arg15 : FVec F S1000 .f32) (main_v13 : IVec S_ 1) (main_v16 : IVec S11 1) : IVec S_ 1 :=
  let main_c_5 : IVec S_ 1 := constantI S_ 1 1#1
  let main_v17 : IVec S_ 1 := (fun x v => Host.reduce IntOp.andi x v reducesTo_S11_S_d0 h_S_) main_v16 main_c_5
  let main_v18 : IVec S_ 1 := andi main_v13 main_v17
  let main_v19 : FVec F S11x512 .f32 := Host.absf main_arg4
  let main_cst_6 : FVec F S_ .f32 := constant S_ .f32 0x7F800000#32
  let main_v20 : FVec F S11x512 .f32 := broadcastInDim S11x512 ![] bcast_S_S11x512 main_cst_6
  let main_v21 : IVec S11x512 1 := cmpf .olt main_v19 main_v20
  let main_c_7 : IVec S_ 1 := constantI S_ 1 1#1
  let main_v22 : IVec S_ 1 := (fun x v => Host.reduce IntOp.andi x v reducesTo_S11x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S50000x4 .f32) (main_arg1 : FVec F S150000x11 .f32) (main_arg2 : FVec F S4x11 .f32) (main_arg3 : FVec F S11 .f32) (main_arg4 : FVec F S11x512 .f32) (main_arg5 : FVec F S512 .f32) (main_arg6 : FVec F S512x1024 .f32) (main_arg7 : FVec F S1024 .f32) (main_arg8 : FVec F S1024x2048 .f32) (main_arg9 : FVec F S2048 .f32) (main_arg10 : FVec F S2048x1 .f32) (main_arg11 : FVec F S1 .f32) (main_arg12 : FVec F S1024x2048 .f32) (main_arg13 : FVec F S2048 .f32) (main_arg14 : FVec F S2048x1000 .f32) (main_arg15 : FVec F S1000 .f32) (main_arg16 : IVec S150000 32) (main_arg17 : IVec S150000 32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S150000x11 .f32 := Host.absf main_arg1
  let main_cst_0 : FVec F S_ .f32 := constant S_ .f32 0x7F800000#32
  let main_v5 : FVec F S150000x11 .f32 := broadcastInDim S150000x11 ![] bcast_S_S150000x11 main_cst_0
  let main_v6 : IVec S150000x11 1 := cmpf .olt main_v4 main_v5
  let main_c_1 : IVec S_ 1 := constantI S_ 1 1#1
  let main_v7 : IVec S_ 1 := (fun x v => Host.reduce IntOp.andi x v reducesTo_S150000x11_S_d0_1 h_S_) main_v6 main_c_1
  let main_v8 : IVec S_ 1 := andi main_v3 main_v7
  let main_v9 : FVec F S4x11 .f32 := Host.absf main_arg2
  let main_cst_2 : FVec F S_ .f32 := constant S_ .f32 0x7F800000#32
  let main_v10 : FVec F S4x11 .f32 := broadcastInDim S4x11 ![] bcast_S_S4x11 main_cst_2
  let main_v11 : IVec S4x11 1 := cmpf .olt main_v9 main_v10
  let main_c_3 : IVec S_ 1 := constantI S_ 1 1#1
  let main_v12 : IVec S_ 1 := (fun x v => Host.reduce IntOp.andi x v reducesTo_S4x11_S_d0_1 h_S_) main_v11 main_c_3
  let main_v13 : IVec S_ 1 := andi main_v8 main_v12
  let main_v14 : FVec F S11 .f32 := Host.absf main_arg3
  let main_cst_4 : FVec F S_ .f32 := constant S_ .f32 0x7F800000#32
  let main_v15 : FVec F S11 .f32 := broadcastInDim S11 ![] bcast_S_S11 main_cst_4
  let main_v16 : IVec S11 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S50000x4 : Shape := ⟨2, ![50000, 4]⟩
abbrev S150000x11 : Shape := ⟨2, ![150000, 11]⟩
abbrev S4x11 : Shape := ⟨2, ![4, 11]⟩
abbrev S11 : Shape := ⟨1, ![11]⟩
abbrev S11x512 : Shape := ⟨2, ![11, 512]⟩
abbrev S512 : Shape := ⟨1, ![512]⟩
abbrev S512x1024 : Shape := ⟨2, ![512, 1024]⟩
abbrev S1024 : Shape := ⟨1, ![1024]⟩
abbrev S1024x2048 : Shape := ⟨2, ![1024, 2048]⟩
abbrev S2048 : Shape := ⟨1, ![2048]⟩
abbrev S2048x1 : Shape := ⟨2, ![2048, 1]⟩
abbrev S1 : Shape := ⟨1, ![1]⟩
abbrev S2048x1000 : Shape := ⟨2, ![2048, 1000]⟩
abbrev S1000 : Shape := ⟨1, ![1000]⟩
abbrev S150000 : Shape := ⟨1, ![150000]⟩
abbrev S50000 : Shape := ⟨1, ![50000]⟩
abbrev S200000 : Shape := ⟨1, ![200000]⟩
abbrev S_ : Shape := ⟨0, ![]⟩
abbrev S50000x11 : Shape := ⟨2, ![50000, 11]⟩
abbrev S200000x11 : Shape := ⟨2, ![200000, 11]⟩
abbrev S200000x1 : Shape := ⟨2, ![200000, 1]⟩
abbrev S50000x1 : Shape := ⟨2, ![50000, 1]⟩
abbrev S200000x4 : Shape := ⟨2, ![200000, 4]⟩
abbrev S1x11 : Shape := ⟨2, ![1, 11]⟩
abbrev S2000x4 : Shape := ⟨2, ![2000, 4]⟩
abbrev S2000x1 : Shape := ⟨2, ![2000, 1]⟩
abbrev S2000x11 : Shape := ⟨2, ![2000, 11]⟩
abbrev S1x512 : Shape := ⟨2, ![1, 512]⟩
abbrev S50000x512 : Shape := ⟨2, ![50000, 512]⟩
abbrev S2000x512 : Shape := ⟨2, ![2000, 512]⟩
abbrev S200000x512 : Shape := ⟨2, ![200000, 512]⟩
abbrev S1x1024 : Shape := ⟨2, ![1, 1024]⟩
abbrev S50000x1024 : Shape := ⟨2, ![50000, 1024]⟩
abbrev S2000x1024 : Shape := ⟨2, ![2000, 1024]⟩
abbrev S1x2048 : Shape := ⟨2, ![1, 2048]⟩
abbrev S1x1 : Shape := ⟨2, ![1, 1]⟩
abbrev S1x1000 : Shape := ⟨2, ![1, 1000]⟩

abbrev nBuf : Space → Nat
  | .hbm => 228
  | .vmem => 24
  | .smem => 0
  | _ => 0

abbrev hbmTy0_0 (i : Nat) : BufTy := match i % 128 with
  | 0 => ⟨S50000x4, .f32⟩
  | 1 => ⟨S150000x11, .f32⟩
  | 2 => ⟨S4x11, .f32⟩
  | 3 => ⟨S11, .f32⟩
  | 4 => ⟨S11x512, .f32⟩
  | 5 => ⟨S512, .f32⟩
  | 6 => ⟨S512x1024, .f32⟩
  | 7 => ⟨S1024, .f32⟩
  | 8 => ⟨S1024x2048, .f32⟩
  | 9 => ⟨S2048, .f32⟩
  | 10 => ⟨S2048x1, .f32⟩
  | 11 => ⟨S1, .f32⟩
  | 12 => ⟨S1024x2048, .f32⟩
  | 13 => ⟨S2048, .f32⟩
  | 14 => ⟨S2048x1000, .f32⟩
  | 15 => ⟨S1000, .f32⟩
  | 16 => ⟨S150000, .i32⟩
  | 17 => ⟨S150000, .i32⟩
  | 18 => ⟨S50000, .i32⟩
  | 19 => ⟨S200000, .i32⟩
  | 20 => ⟨S200000, .i32⟩
  | 21 => ⟨S_, .f32⟩
  | 22 => ⟨S50000x11, .f32⟩
  | 23 => ⟨S200000x11, .f32⟩
  | 24 => ⟨S_, .f32⟩
  | 25 => ⟨S50000, .f32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S_, .f32⟩
  | 35 => ⟨S200000, .f32⟩
  | 36 => ⟨S50000, .f32⟩
  | 37 => ⟨S_, .f32⟩
  | 38 => ⟨S50000, .f32⟩
  | 39 => ⟨S50000, .f32⟩
  | 40 => ⟨S_, .f32⟩
  | 41 => ⟨S50000, .f32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S_, .f32⟩
  | 51 => ⟨S200000, .f32⟩
  | 52 => ⟨S50000, .f32⟩
  | 53 => ⟨S_, .f32⟩
  | 54 => ⟨S50000, .f32⟩
  | 55 => ⟨S50000, .f32⟩
  | 56 => ⟨S50000x1, .f32⟩
  | 57 => ⟨S_, .f32⟩
  | 58 => ⟨S50000x1, .f32⟩
  | 59 => ⟨S50000x1, .f32⟩
  | 60 => ⟨S50000x4, .f32⟩
  | 61 => ⟨S50000x4, .f32⟩
  | 62 => ⟨S_, .i32⟩
  | 63 => ⟨S200000, .i32⟩
  | 64 => ⟨S200000, .i1⟩
  | 65 => ⟨S_, .i32⟩
  | 66 => ⟨S200000, .i32⟩
  | 67 => ⟨S200000, .i32⟩
  | 68 => ⟨S200000, .i32⟩
  | 69 => ⟨S200000x1, .i32⟩
  | 70 => ⟨S200000x4, .f32⟩
  | 71 => ⟨S_, .f32⟩
  | 72 => ⟨S50000x4, .f32⟩
  | 73 => ⟨S200000x1, .i32⟩
  | 74 => ⟨S50000x4, .f32⟩
  | 75 => ⟨S50000x1, .f32⟩
  | 76 => ⟨S_, .f32⟩
  | 77 => ⟨S50000x1, .f32⟩
  | 78 => ⟨S50000x1, .f32⟩
  | 79 => ⟨S1x11, .f32⟩
  | 80 => ⟨S50000x11, .f32⟩
  | 81 => ⟨S_, .f32⟩
  | 82 => ⟨S50000, .f32⟩
  | 83 => ⟨S_, .i32⟩
  | 84 => ⟨S200000, .i32⟩
  | 85 => ⟨S200000, .i1⟩
  | 86 => ⟨S_, .i32⟩
  | 87 => ⟨S200000, .i32⟩
  | 88 => ⟨S200000, .i32⟩
  | 89 => ⟨S200000, .i32⟩
  | 90 => ⟨S200000x1, .i32⟩
  | 91 => ⟨S_, .f32⟩
  | 92 => ⟨S200000, .f32⟩
  | 93 => ⟨S50000, .f32⟩
  | 94 => ⟨S_, .f32⟩
  | 95 => ⟨S50000, .f32⟩
  | 96 => ⟨S50000, .f32⟩
  | 97 => ⟨S_, .f32⟩
  | 98 => ⟨S50000, .f32⟩
  | 99 => ⟨S_, .i32⟩
  | 100 => ⟨S200000, .i32⟩
  | 101 => ⟨S200000, .i1⟩
  | 102 => ⟨S_, .i32⟩
  | 103 => ⟨S200000, .i32⟩
  | 104 => ⟨S200000, .i32⟩
  | 105 => ⟨S200000, .i32⟩
  | 106 => ⟨S200000x1, .i32⟩
  | 107 => ⟨S_, .f32⟩
  | 108 => ⟨S200000, .f32⟩
  | 109 => ⟨S50000, .f32⟩
  | 110 => ⟨S_, .f32⟩
  | 111 => ⟨S50000, .f32⟩
  | 112 => ⟨S50000, .f32⟩
  | 113 => ⟨S50000x1, .f32⟩
  | 114 => ⟨S_, .f32⟩
  | 115 => ⟨S50000x1, .f32⟩
  | 116 => ⟨S50000x1, .f32⟩
  | 117 => ⟨S50000x11, .f32⟩
  | 118 => ⟨S50000x11, .f32⟩
  | 119 => ⟨S_, .i32⟩
  | 120 => ⟨S200000, .i32⟩
  | 121 => ⟨S200000, .i1⟩
  | 122 => ⟨S_, .i32⟩
  | 123 => ⟨S200000, .i32⟩
  | 124 => ⟨S200000, .i32⟩
  | 125 => ⟨S200000, .i32⟩
  | 126 => ⟨S200000x1, .i32⟩
  | 127 => ⟨S200000x11, .f32⟩
  | _ => ⟨S50000x4, .f32⟩

abbrev hbmTy0_1 (i : Nat) : BufTy := match i % 128 with
  | 0 => ⟨S200000x11, .f32⟩
  | 1 => ⟨S_, .f32⟩
  | 2 => ⟨S50000x11, .f32⟩
  | 3 => ⟨S200000x1, .i32⟩
  | 4 => ⟨S50000x11, .f32⟩
  | 5 => ⟨S50000x1, .f32⟩
  | 6 => ⟨S_, .f32⟩
  | 7 => ⟨S50000x1, .f32⟩
  | 8 => ⟨S50000x1, .f32⟩
  | 9 => ⟨S1x512, .f32⟩
  | 10 => ⟨S50000x512, .f32⟩
  | 11 => ⟨S_, .f32⟩
  | 12 => ⟨S50000, .f32⟩
  | 13 => ⟨S_, .i32⟩
  | 14 => ⟨S200000, .i32⟩
  | 15 => ⟨S200000, .i1⟩
  | 16 => ⟨S_, .i32⟩
  | 17 => ⟨S200000, .i32⟩
  | 18 => ⟨S200000, .i32⟩
  | 19 => ⟨S200000, .i32⟩
  | 20 => ⟨S200000x1, .i32⟩
  | 21 => ⟨S_, .f32⟩
  | 22 => ⟨S200000, .f32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S_, .i32⟩
  | 30 => ⟨S200000, .i32⟩
  | 31 => ⟨S200000, .i1⟩
  | 32 => ⟨S_, .i32⟩
  | 33 => ⟨S200000, .i32⟩
  | 34 => ⟨S200000, .i32⟩
  | 35 => ⟨S200000, .i32⟩
  | 36 => ⟨S200000x1, .i32⟩
  | 37 => ⟨S_, .f32⟩
  | 38 => ⟨S200000, .f32⟩
  | 39 => ⟨S50000, .f32⟩
  | 40 => ⟨S_, .f32⟩
  | 41 => ⟨S50000, .f32⟩
  | 42 => ⟨S50000, .f32⟩
  | 43 => ⟨S50000x1, .f32⟩
  | 44 => ⟨S_, .f32⟩
  | 45 => ⟨S50000x1, .f32⟩
  | 46 => ⟨S50000x1, .f32⟩
  | 47 => ⟨S50000x512, .f32⟩
  | 48 => ⟨S50000x512, .f32⟩
  | 49 => ⟨S_, .i32⟩
  | 50 => ⟨S200000, .i32⟩
  | 51 => ⟨S200000, .i1⟩
  | 52 => ⟨S_, .i32⟩
  | 53 => ⟨S200000, .i32⟩
  | 54 => ⟨S200000, .i32⟩
  | 55 => ⟨S200000, .i32⟩
  | 56 => ⟨S200000x1, .i32⟩
  | 57 => ⟨S200000x512, .f32⟩
  | 58 => ⟨S_, .f32⟩
  | 59 => ⟨S50000x512, .f32⟩
  | 60 => ⟨S200000x1, .i32⟩
  | 61 => ⟨S50000x512, .f32⟩
  | 62 => ⟨S50000x1, .f32⟩
  | 63 => ⟨S_, .f32⟩
  | 64 => ⟨S50000x1, .f32⟩
  | 65 => ⟨S50000x1, .f32⟩
  | 66 => ⟨S1x1024, .f32⟩
  | 67 => ⟨S50000x1024, .f32⟩
  | 68 => ⟨S_, .f32⟩
  | 69 => ⟨S1024, .f32⟩
  | 70 => ⟨S1x1024, .f32⟩
  | 71 => ⟨S_, .f32⟩
  | 72 => ⟨S1x1024, .f32⟩
  | 73 => ⟨S1x1024, .f32⟩
  | 74 => ⟨S1x2048, .f32⟩
  | 75 => ⟨S1x2048, .f32⟩
  | 76 => ⟨S1x2048, .f32⟩
  | 77 => ⟨S_, .f32⟩
  | 78 => ⟨S1x2048, .f32⟩
  | 79 => ⟨S1x2048, .f32⟩
  | 80 => ⟨S1x1, .f32⟩
  | 81 => ⟨S1x1, .f32⟩
  | 82 => ⟨S1x1, .f32⟩
  | 83 => ⟨S1x2048, .f32⟩
  | 84 => ⟨S1x2048, .f32⟩
  | 85 => ⟨S1x2048, .f32⟩
  | 86 => ⟨S_, .f32⟩
  | 87 => ⟨S1x2048, .f32⟩
  | 88 => ⟨S1x2048, .f32⟩
  | 89 => ⟨S1x1000, .f32⟩
  | 90 => ⟨S1x1000, .f32⟩
  | 91 => ⟨S1x1000, .f32⟩
  | 92 => ⟨S_, .f32⟩
  | 93 => ⟨S_, .f32⟩
  | 94 => ⟨S_, .f32⟩
  | 95 => ⟨S_, .f32⟩
  | 96 => ⟨S1x1000, .f32⟩
  | 97 => ⟨S1x1000, .f32⟩
  | 98 => ⟨S1x1000, .f32⟩
  | 99 => ⟨S1x1000, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | .local _ .vmem, ⟨0, _⟩ => ⟨S2000x4, .f32⟩
  | .local _ .vmem, ⟨1, _⟩ => ⟨S2000x4, .f32⟩
  | .local _ .vmem, ⟨2, _⟩ => ⟨S4x11, .f32⟩
  | .local _ .vmem, ⟨3, _⟩ => ⟨S1x11, .f32⟩
  | .local _ .vmem, ⟨4, _⟩ => ⟨S2000x1, .f32⟩
  | .local _ .vmem, ⟨5, _⟩ => ⟨S2000x1, .f32⟩
  | .local _ .vmem, ⟨6, _⟩ => ⟨S2000x11, .f32⟩
  | .local _ .vmem, ⟨7, _⟩ => ⟨S2000x11, .f32⟩
  | .local _ .vmem, ⟨8, _⟩ => ⟨S2000x11, .f32⟩
  | .local _ .vmem, ⟨9, _⟩ => ⟨S2000x11, .f32⟩
  | .local _ .vmem, ⟨10, _⟩ => ⟨S11x512, .f32⟩
  | .local _ .vmem, ⟨11, _⟩ => ⟨S1x512, .f32⟩
  | .local _ .vmem, ⟨12, _⟩ => ⟨S2000x1, .f32⟩
  | .local _ .vmem, ⟨13, _⟩ => ⟨S2000x1, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S2000x512, .f32⟩
  | .local _ .vmem, ⟨18, _⟩ => ⟨S512x1024, .f32⟩
  | .local _ .vmem, ⟨19, _⟩ => ⟨S1x1024, .f32⟩
  | .local _ .vmem, ⟨20, _⟩ => ⟨S2000x1, .f32⟩
  | .local _ .vmem, ⟨21, _⟩ => ⟨S2000x1, .f32⟩
  | .local _ .vmem, ⟨22, _⟩ => ⟨S2000x1024, .f32⟩
  | .local _ .vmem, ⟨23, _⟩ => ⟨S2000x1024, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_c_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_cst_4 : Ref sig .tc := ⟨.hbm, 40, rfl⟩
abbrev main_v16 : Ref sig .tc := ⟨.hbm, 41, rfl⟩
abbrev main_c_5 : Ref sig .tc := ⟨.hbm, 42, rfl⟩
abbrev main_v17 : Ref sig .tc := ⟨.hbm, 43, rfl⟩
abbrev main_v18 : Ref sig .tc := ⟨.hbm, 44, rfl⟩
abbrev main_c_6 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_7 : Ref sig .tc := ⟨.hbm, 50, rfl⟩
abbrev main_v23 : Ref sig .tc := ⟨.hbm, 51, rfl⟩
abbrev main_v24 : Ref sig .tc := ⟨.hbm, 52, rfl⟩
abbrev main_cst_8 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_9 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_10 : Ref sig .tc := ⟨.hbm, 62, rfl⟩
abbrev main_v32 : Ref sig .tc := ⟨.hbm, 63, rfl⟩
abbrev main_v33 : Ref sig .tc := ⟨.hbm, 64, rfl⟩
abbrev main_c_11 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_12 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_13 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_14 : Ref sig .tc := ⟨.hbm, 81, rfl⟩
abbrev main_v47 : Ref sig .tc := ⟨.hbm, 82, rfl⟩
abbrev main_c_15 : Ref sig .tc := ⟨.hbm, 83, rfl⟩
abbrev main_v48 : Ref sig .tc := ⟨.hbm, 84, rfl⟩
abbrev main_v49 : Ref sig .tc := ⟨.hbm, 85, rfl⟩
abbrev main_c_16 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_17 : Ref sig .tc := ⟨.hbm, 91, rfl⟩
abbrev main_v54 : Ref sig .tc := ⟨.hbm, 92, rfl⟩
abbrev main_v55 : Ref sig .tc := ⟨.hbm, 93, rfl⟩
abbrev main_cst_18 : Ref sig .tc := ⟨.hbm, 94, rfl⟩
abbrev main_v56 : Ref sig .tc := ⟨.hbm, 95, rfl⟩
abbrev main_v57 : Ref sig .tc := ⟨.hbm, 96, rfl⟩
abbrev main_cst_19 : Ref sig .tc := ⟨.hbm, 97, rfl⟩
abbrev main_v58 : Ref sig .tc := ⟨.hbm, 98, rfl⟩
abbrev main_c_20 : Ref sig .tc := ⟨.hbm, 99, rfl⟩
abbrev main_v59 : Ref sig .tc := ⟨.hbm, 100, rfl⟩
abbrev main_v60 : Ref sig .tc := ⟨.hbm, 101, rfl⟩
abbrev main_c_21 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_22 : Ref sig .tc := ⟨.hbm, 107, rfl⟩
abbrev main_v65 : Ref sig .tc := ⟨.hbm, 108, rfl⟩
abbrev main_v66 : Ref sig .tc := ⟨.hbm, 109, rfl⟩
abbrev main_cst_23 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_24 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_c_25 : Ref sig .tc := ⟨.hbm, 119, rfl⟩
abbrev main_v74 : Ref sig .tc := ⟨.hbm, 120, rfl⟩
abbrev main_v75 : Ref sig .tc := ⟨.hbm, 121, rfl⟩
abbrev main_c_26 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_27 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_28 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_29 : Ref sig .tc := ⟨.hbm, 139, rfl⟩
abbrev main_v90 : Ref sig .tc := ⟨.hbm, 140, rfl⟩
abbrev main_c_30 : Ref sig .tc := ⟨.hbm, 141, rfl⟩
abbrev main_v91 : Ref sig .tc := ⟨.hbm, 142, rfl⟩
abbrev main_v92 : Ref sig .tc := ⟨.hbm, 143, rfl⟩
abbrev main_c_31 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_32 : Ref sig .tc := ⟨.hbm, 149, rfl⟩
abbrev main_v97 : Ref sig .tc := ⟨.hbm, 150, rfl⟩
abbrev main_v98 : Ref sig .tc := ⟨.hbm, 151, rfl⟩
abbrev main_cst_33 : Ref sig .tc := ⟨.hbm, 152, rfl⟩
abbrev main_v99 : Ref sig .tc := ⟨.hbm, 153, rfl⟩
abbrev main_v100 : Ref sig .tc := ⟨.hbm, 154, rfl⟩
abbrev main_cst_34 : Ref sig .tc := ⟨.hbm, 155, rfl⟩
abbrev main_v101 : Ref sig .tc := ⟨.hbm, 156, rfl⟩
abbrev main_c_35 : Ref sig .tc := ⟨.hbm, 157, rfl⟩
abbrev main_v102 : Ref sig .tc := ⟨.hbm, 158, rfl⟩
abbrev main_v103 : Ref sig .tc := ⟨.hbm, 159, rfl⟩
abbrev main_c_36 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_37 : Ref sig .tc := ⟨.hbm, 165, rfl⟩
abbrev main_v108 : Ref sig .tc := ⟨.hbm, 166, rfl⟩
abbrev main_v109 : Ref sig .tc := ⟨.hbm, 167, rfl⟩
abbrev main_cst_38 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_cst_39 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_c_40 : Ref sig .tc := ⟨.hbm, 177, rfl⟩
abbrev main_v117 : Ref sig .tc := ⟨.hbm, 178, rfl⟩
abbrev main_v118 : Ref sig .tc := ⟨.hbm, 179, rfl⟩
abbrev main_c_41 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_cst_42 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_cst_43 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_cst_44 : Ref sig .tc := ⟨.hbm, 196, rfl⟩
abbrev main_v132 : Ref sig .tc := ⟨.hbm, 197, rfl⟩
abbrev main_v133 : Ref sig .tc := ⟨.hbm, 198, rfl⟩
abbrev main_cst_45 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_call0_cst : Ref sig .tc := ⟨.hbm, 205, rfl⟩
abbrev main_call0_v0 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_call1_cst : Ref sig .tc := ⟨.hbm, 214, rfl⟩
abbrev main_call1_v0 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_cst_46 : Ref sig .tc := ⟨.hbm, 220, rfl⟩
abbrev main_v150 : Ref sig .tc := ⟨.hbm, 221, rfl⟩
abbrev main_cst_47 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x11 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x11 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x11 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x11 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S11x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  concatenates_S150000_S50000_S200000_d0 : Shape.Concatenates [S150000, S50000] S200000 0
  bcast_S_S50000x11 : S_.BroadcastsInDim S50000x11 (![] : Fin 0 → Fin S50000x11.rank)
  concatenates_S150000x11_S50000x11_S200000x11_d0 : Shape.Concatenates [S150000x11, S50000x11] S200000x11 0
  bcast_S_S50000 : S_.BroadcastsInDim S50000 (![] : Fin 0 → Fin S50000.rank)
  bcast_S_S200000 : S_.BroadcastsInDim S200000 (![] : Fin 0 → Fin S200000.rank)
  bcast_S200000_S200000x1_0 : S200000.BroadcastsInDim S200000x1 (![0] : Fin 1 → Fin S200000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x4_0_1 : S50000x1.BroadcastsInDim S50000x4 (![0, 1] : Fin 2 → Fin S50000x4.rank)
  bcast_S_S50000x4 : S_.BroadcastsInDim S50000x4 (![] : Fin 0 → Fin S50000x4.rank)
  shapeCasts_S11_S1x11 : S11.ShapeCasts S1x11
  inb_S2000x4_S2000x4_0_0 : ∀ a, (![0, 0] : Fin 2 → Nat) a + S2000x4.size a ≤ S2000x4.size a
  h_S2000x4 : 0 < S2000x4.numel
  shapeCasts_S2000x4_S2000x4 : S2000x4.ShapeCasts S2000x4
  inb_S4x11_S4x11_0_0 : ∀ a, (![0, 0] : Fin 2 → Nat) a + S4x11.size a ≤ S4x11.size a
  h_S4x11 : 0 < S4x11.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x11 : S2000x1.Broadcasts S2000x11
  inb_S1x11_S1x11_0_0 : ∀ a, (![0, 0] : Fin 2 → Nat) a + S1x11.size a ≤ S1x11.size a
  h_S1x11 : 0 < S1x11.numel
  shapeCasts_S1x11_S1x11 : S1x11.ShapeCasts S1x11
  broadcasts_S1x11_S2000x11 : S1x11.Broadcasts S2000x11
  inb_S2000x11_S2000x11_0_0 : ∀ a, (![0, 0] : Fin 2 → Nat) a + S2000x11.size a ≤ S2000x11.size a
  h_S2000x11 : 0 < S2000x11.numel
  bcast_S50000x1_S50000x11_0_1 : S50000x1.BroadcastsInDim S50000x11 (![0, 1] : Fin 2 → Fin S50000x11.rank)
  shapeCasts_S512_S1x512 : S512.ShapeCasts S1x512
  shapeCasts_S2000x11_S2000x11 : S2000x11.ShapeCasts S2000x11
  inb_S11x512_S11x512_0_0 : ∀ a, (![0, 0] : Fin 2 → Nat) a + S11x512.size a ≤ S11x512.size a
  h_S11x512 : 0 < S11x512.numel
  broadcasts_S2000x1_S2000x512 : S2000x1.Broadcasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  bcast_S50000x1_S50000x512_0_1 : S50000x1.BroadcastsInDim S50000x512 (![0, 1] : Fin 2 → Fin S50000x512.rank)
  bcast_S_S50000x512 : S_.BroadcastsInDim S50000x512 (![] : Fin 0 → Fin S50000x512.rank)
  shapeCasts_S1024_S1x1024 : S1024.ShapeCasts S1x1024
  shapeCasts_S2000x512_S2000x512 : S2000x512.ShapeCasts S2000x512
  inb_S512x1024_S512x1024_0_0 : ∀ a, (![0, 0] : Fin 2 → Nat) a + S512x1024.size a ≤ S512x1024.size a
  h_S512x1024 : 0 < S512x1024.numel
  broadcasts_S2000x1_S2000x1024 : S2000x1.Broadcasts S2000x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  reducesTo_S50000x1024_S1024_d0 : S50000x1024.ReducesTo [0] S1024
  h_S_ : 0 < S_.numel
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1_S1x1_1 : S1.BroadcastsInDim S1x1 (![1] : Fin 1 → Fin S1x1.rank)
  bcast_S1000_S1x1000_1 : S1000.BroadcastsInDim S1x1000 (![1] : Fin 1 → Fin S1x1000.rank)
  reducesTo_S1x1000_S_d0_1 : S1x1000.ReducesTo [0, 1] S_
  bcast_S_S1x1000 : S_.BroadcastsInDim S1x1000 (![] : Fin 0 → Fin S1x1000.rank)
  bcast_S1x1_S1x1000_0_1 : S1x1.BroadcastsInDim S1x1000 (![0, 1] : Fin 2 → Fin S1x1000.rank)
  scatter_S50000_S200000x1_S200000_n_0_0_1_wf : ScatterDims.WF S50000 S200000x1 S200000 [] [0] [0] 1
  gather_S50000x4_S200000x1_S200000x4_1_0_n_n_0_1_14_wf : GatherDims.WF S50000x4 S200000x1 S200000x4 [1] [0] [] [0] [] 1 ![1, 4]
  scatter_S50000x4_S200000x1_S200000x4_1_0_0_1_wf : ScatterDims.WF S50000x4 S200000x1 S200000x4 [1] [0] [0] 1
  dot_S2000x4_S4x11_S2000x11_1_0_0_1_n_n_wf : DotDims.WF S2000x4 S4x11 S2000x11 [1] [0] [0] [1] [] []
  gather_S50000x11_S200000x1_S200000x11_1_0_n_n_0_1_111_wf : GatherDims.WF S50000x11 S200000x1 S200000x11 [1] [0] [] [0] [] 1 ![1, 11]
  scatter_S50000x11_S200000x1_S200000x11_1_0_0_1_wf : ScatterDims.WF S50000x11 S200000x1 S200000x11 [1] [0] [0] 1
  dot_S2000x11_S11x512_S2000x512_1_0_0_1_n_n_wf : DotDims.WF S2000x11 S11x512 S2000x512 [1] [0] [0] [1] [] []
  gather_S50000x512_S200000x1_S200000x512_1_0_n_n_0_1_1512_wf : GatherDims.WF S50000x512 S200000x1 S200000x512 [1] [0] [] [0] [] 1 ![1, 512]
  scatter_S50000x512_S200000x1_S200000x512_1_0_0_1_wf : ScatterDims.WF S50000x512 S200000x1 S200000x512 [1] [0] [0] 1
  dot_S2000x512_S512x1024_S2000x1024_1_0_0_1_n_n_wf : DotDims.WF S2000x512 S512x1024 S2000x1024 [1] [0] [0] [1] [] []
  dot_S1x1024_S1024x2048_S1x2048_1_0_0_1_n_n_wf : DotDims.WF S1x1024 S1024x2048 S1x2048 [1] [0] [0] [1] [] []
  dot_S1x2048_S2048x1_S1x1_1_0_0_1_n_n_wf : DotDims.WF S1x2048 S2048x1 S1x1 [1] [0] [0] [1] [] []
  dot_S1x2048_S2048x1000_S1x1000_1_0_0_1_n_n_wf : DotDims.WF S1x2048 S2048x1000 S1x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S50000x4.size a
  hwx0_0 : ∀ i : grid0.Coords, EltTy.bits .f32 = 32 ∨ (Rect.block (s := S50000x4) S2000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x11.size a ≤ S4x11.size a
  hwx0_1 : ∀ i : grid0.Coords, EltTy.bits .f32 = 32 ∨ (Rect.block (s := S4x11) S4x11.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x11.size a ≤ S1x11.size a
  hwx0_2 : ∀ i : grid0.Coords, EltTy.bits .f32 = 32 ∨ (Rect.block (s := S1x11) S1x11.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x11.size a ≤ S50000x11.size a
  hwx0_4 : ∀ i : grid0.Coords, EltTy.bits .f32 = 32 ∨ (Rect.block (s := S50000x11) S2000x11.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x11.size a ≤ S50000x11.size a
  hwx1_0 : ∀ i : grid1.Coords, EltTy.bits .f32 = 32 ∨ (Rect.block (s := S50000x11) S2000x11.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S11x512.size a ≤ S11x512.size a
  hwx1_1 : ∀ i : grid1.Coords, EltTy.bits .f32 = 32 ∨ (Rect.block (s := S11x512) S11x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S50000x512.size a
  hwx1_4 : ∀ i : grid1.Coords, EltTy.bits .f32 = 32 ∨ (Rect.block (s := S50000x512) S2000x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S512x1024.size a
  hwx2_1 : ∀ i : grid2.Coords, EltTy.bits .f32 = 32 ∨ (Rect.block (s := S512x1024) S512x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1024.size a ≤ S50000x1024.size a
  hwx2_4 : ∀ i : grid2.Coords, EltTy.bits .f32 = 32 ∨ (Rect.block (s := S50000x1024) S2000x1024.size (cc2_transform_4 i) (hinb2_4 i)).WholeWords (EltTy.packing .f32)

variable [Facts₀]

def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def gather_S50000x4_S200000x1_S200000x4_1_0_n_n_0_1_14 : GatherDims S50000x4 S200000x1 S200000x4 where
  offsetDims := [1]
  collapsedSliceDims := [0]
  operandBatchingDims := []
  startIndicesBatchingDims := []
  startIndexMap := [0]
  indexVectorDim := 1
  sliceSizes := ![1, 4]
  wf := gather_S50000x4_S200000x1_S200000x4_1_0_n_n_0_1_14_wf
def scatter_S50000x4_S200000x1_S200000x4_1_0_0_1 : ScatterDims S50000x4 S200000x1 S200000x4 where
  updateWindowDims := [1]
  insertedWindowDims := [0]
  scatterDimsToOperandDims := [0]
  indexVectorDim := 1
  wf := scatter_S50000x4_S200000x1_S200000x4_1_0_0_1_wf
def dot_S2000x4_S4x11_S2000x11_1_0_0_1_n_n : DotDims S2000x4 S4x11 S2000x11 where
  lhsContracting := [1]
  rhsContracting := [0]
  lhsNonContracting := [0]
  rhsNonContracting := [1]
  lhsBatch := []
  rhsBatch := []
  wf := dot_S2000x4_S4x11_S2000x11_1_0_0_1_n_n_wf
def gather_S50000x11_S200000x1_S200000x11_1_0_n_n_0_1_111 : GatherDims S50000x11 S200000x1 S200000x11 where
  offsetDims := [1]
  collapsedSliceDims := [0]
  operandBatchingDims := []
  startIndicesBatchingDims := []
  startIndexMap := [0]
  indexVectorDim := 1
  sliceSizes := ![1, 11]
  wf := gather_S50000x11_S200000x1_S200000x11_1_0_n_n_0_1_111_wf
def scatter_S50000x11_S200000x1_S200000x11_1_0_0_1 : ScatterDims S50000x11 S200000x1 S200000x11 where
  updateWindowDims := [1]
  insertedWindowDims := [0]
  scatterDimsToOperandDims := [0]
  indexVectorDim := 1
  wf := scatter_S50000x11_S200000x1_S200000x11_1_0_0_1_wf
def dot_S2000x11_S11x512_S2000x512_1_0_0_1_n_n : DotDims S2000x11 S11x512 S2000x512 where
  lhsContracting := [1]
  rhsContracting := [0]
  lhsNonContracting := [0]
  rhsNonContracting := [1]
  lhsBatch := []
  rhsBatch := []
  wf := dot_S2000x11_S11x512_S2000x512_1_0_0_1_n_n_wf
def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def scatter_S50000x512_S200000x1_S200000x512_1_0_0_1 : ScatterDims S50000x512 S200000x1 S200000x512 where
  updateWindowDims := [1]
  insertedWindowDims := [0]
  scatterDimsToOperandDims := [0]
  indexVectorDim := 1
  wf := scatter_S50000x512_S200000x1_S200000x512_1_0_0_1_wf
def dot_S2000x512_S512x1024_S2000x1024_1_0_0_1_n_n : DotDims S2000x512 S512x1024 S2000x1024 where
  lhsContracting := [1]
  rhsContracting := [0]
  lhsNonContracting := [0]
  rhsNonContracting := [1]
  lhsBatch := []
  rhsBatch := []
  wf := dot_S2000x512_S512x1024_S2000x1024_1_0_0_1_n_n_wf
def dot_S1x1024_S1024x2048_S1x2048_1_0_0_1_n_n : DotDims S1x1024 S1024x2048 S1x2048 where
  lhsContracting := [1]
  rhsContracting := [0]
  lhsNonContracting := [0]
  rhsNonContracting := [1]
  lhsBatch := []
  rhsBatch := []
  wf := dot_S1x1024_S1024x2048_S1x2048_1_0_0_1_n_n_wf
def dot_S1x2048_S2048x1_S1x1_1_0_0_1_n_n : DotDims S1x2048 S2048x1 S1x1 where
  lhsContracting := [1]
  rhsContracting := [0]
  lhsNonContracting := [0]
  rhsNonContracting := [1]
  lhsBatch := []
  rhsBatch := []
  wf := dot_S1x2048_S2048x1_S1x1_1_0_0_1_n_n_wf
def dot_S1x2048_S2048x1000_S1x1000_1_0_0_1_n_n : DotDims S1x2048 S2048x1000 S1x1000 where
  lhsContracting := [1]
  rhsContracting := [0]
  lhsNonContracting := [0]
  rhsNonContracting := [1]
  lhsBatch := []
  rhsBatch := []
  wf := dot_S1x2048_S2048x1000_S1x1000_1_0_0_1_n_n_wf

abbrev win0_0 : Pipeline.Window sig grid0 :=
  Pipeline.Window.ofSpec (Memref.whole main_v41) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x11.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x11.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v46) S2000x11.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v84) S2000x11.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S11x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v88) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v87) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v89) S2000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v126) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S512x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v130) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v129) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v131) S2000x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x4 : Shape := ⟨2, ![50000, 4]⟩
abbrev S150000x11 : Shape := ⟨2, ![150000, 11]⟩
abbrev S4x11 : Shape := ⟨2, ![4, 11]⟩
abbrev S11 : Shape := ⟨1, ![11]⟩
abbrev S11x512 : Shape := ⟨2, ![11, 512]⟩
abbrev S512 : Shape := ⟨1, ![512]⟩
abbrev S512x1024 : Shape := ⟨2, ![512, 1024]⟩
abbrev S1024 : Shape := ⟨1, ![1024]⟩
abbrev S1024x2048 : Shape := ⟨2, ![1024, 2048]⟩
abbrev S2048 : Shape := ⟨1, ![2048]⟩
abbrev S2048x1 : Shape := ⟨2, ![2048, 1]⟩
abbrev S1 : Shape := ⟨1, ![1]⟩
abbrev S2048x1000 : Shape := ⟨2, ![2048, 1000]⟩
abbrev S1000 : Shape := ⟨1, ![1000]⟩
abbrev S150000 : Shape := ⟨1, ![150000]⟩
abbrev S50000 : Shape := ⟨1, ![50000]⟩
abbrev S200000 : Shape := ⟨1, ![200000]⟩
abbrev S_ : Shape := ⟨0, ![]⟩
abbrev S50000x11 : Shape := ⟨2, ![50000, 11]⟩
abbrev S200000x11 : Shape := ⟨2, ![200000, 11]⟩
abbrev S200000x1 : Shape := ⟨2, ![200000, 1]⟩
abbrev S50000x1 : Shape := ⟨2, ![50000, 1]⟩
abbrev S200000x4 : Shape := ⟨2, ![200000, 4]⟩
abbrev S1x11 : Shape := ⟨2, ![1, 11]⟩
abbrev S50000x512 : Shape := ⟨2, ![50000, 512]⟩
abbrev S1x512 : Shape := ⟨2, ![1, 512]⟩
abbrev S200000x512 : Shape := ⟨2, ![200000, 512]⟩
abbrev S50000x1024 : Shape := ⟨2, ![50000, 1024]⟩
abbrev S1x1024 : Shape := ⟨2, ![1, 1024]⟩
abbrev S1x2048 : Shape := ⟨2, ![1, 2048]⟩
abbrev S1x1 : Shape := ⟨2, ![1, 1]⟩
abbrev S1x1000 : Shape := ⟨2, ![1, 1000]⟩

abbrev nBuf : Space → Nat
  | .hbm => 246
  | .vmem => 0
  | .smem => 0
  | _ => 0

abbrev hbmTy0_0 (i : Nat) : BufTy := match i % 128 with
  | 0 => ⟨S50000x4, .f32⟩
  | 1 => ⟨S150000x11, .f32⟩
  | 2 => ⟨S4x11, .f32⟩
  | 3 => ⟨S11, .f32⟩
  | 4 => ⟨S11x512, .f32⟩
  | 5 => ⟨S512, .f32⟩
  | 6 => ⟨S512x1024, .f32⟩
  | 7 => ⟨S1024, .f32⟩
  | 8 => ⟨S1024x2048, .f32⟩
  | 9 => ⟨S2048, .f32⟩
  | 10 => ⟨S2048x1, .f32⟩
  | 11 => ⟨S1, .f32⟩
  | 12 => ⟨S1024x2048, .f32⟩
  | 13 => ⟨S2048, .f32⟩
  | 14 => ⟨S2048x1000, .f32⟩
  | 15 => ⟨S1000, .f32⟩
  | 16 => ⟨S150000, .i32⟩
  | 17 => ⟨S150000, .i32⟩
  | 18 => ⟨S50000, .i32⟩
  | 19 => ⟨S200000, .i32⟩
  | 20 => ⟨S200000, .i32⟩
  | 21 => ⟨S_, .f32⟩
  | 22 => ⟨S50000x11, .f32⟩
  | 23 => ⟨S200000x11, .f32⟩
  | 24 => ⟨S_, .f32⟩
  | 25 => ⟨S50000, .f32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S_, .f32⟩
  | 35 => ⟨S200000, .f32⟩
  | 36 => ⟨S50000, .f32⟩
  | 37 => ⟨S_, .f32⟩
  | 38 => ⟨S50000, .f32⟩
  | 39 => ⟨S50000, .f32⟩
  | 40 => ⟨S_, .f32⟩
  | 41 => ⟨S50000, .f32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S_, .f32⟩
  | 51 => ⟨S200000, .f32⟩
  | 52 => ⟨S50000, .f32⟩
  | 53 => ⟨S_, .f32⟩
  | 54 => ⟨S50000, .f32⟩
  | 55 => ⟨S50000, .f32⟩
  | 56 => ⟨S50000x1, .f32⟩
  | 57 => ⟨S_, .f32⟩
  | 58 => ⟨S50000x1, .f32⟩
  | 59 => ⟨S50000x1, .f32⟩
  | 60 => ⟨S50000x4, .f32⟩
  | 61 => ⟨S50000x4, .f32⟩
  | 62 => ⟨S_, .i32⟩
  | 63 => ⟨S200000, .i32⟩
  | 64 => ⟨S200000, .i1⟩
  | 65 => ⟨S_, .i32⟩
  | 66 => ⟨S200000, .i32⟩
  | 67 => ⟨S200000, .i32⟩
  | 68 => ⟨S200000, .i32⟩
  | 69 => ⟨S200000x1, .i32⟩
  | 70 => ⟨S200000x4, .f32⟩
  | 71 => ⟨S_, .f32⟩
  | 72 => ⟨S50000x4, .f32⟩
  | 73 => ⟨S200000x1, .i32⟩
  | 74 => ⟨S50000x4, .f32⟩
  | 75 => ⟨S50000x11, .f32⟩
  | 76 => ⟨S50000x1, .f32⟩
  | 77 => ⟨S_, .f32⟩
  | 78 => ⟨S50000x1, .f32⟩
  | 79 => ⟨S50000x1, .f32⟩
  | 80 => ⟨S50000x11, .f32⟩
  | 81 => ⟨S50000x11, .f32⟩
  | 82 => ⟨S1x11, .f32⟩
  | 83 => ⟨S50000x11, .f32⟩
  | 84 => ⟨S50000x11, .f32⟩
  | 85 => ⟨S_, .f32⟩
  | 86 => ⟨S50000x11, .f32⟩
  | 87 => ⟨S50000x11, .f32⟩
  | 88 => ⟨S_, .f32⟩
  | 89 => ⟨S50000, .f32⟩
  | 90 => ⟨S_, .i32⟩
  | 91 => ⟨S200000, .i32⟩
  | 92 => ⟨S200000, .i1⟩
  | 93 => ⟨S_, .i32⟩
  | 94 => ⟨S200000, .i32⟩
  | 95 => ⟨S200000, .i32⟩
  | 96 => ⟨S200000, .i32⟩
  | 97 => ⟨S200000x1, .i32⟩
  | 98 => ⟨S_, .f32⟩
  | 99 => ⟨S200000, .f32⟩
  | 100 => ⟨S50000, .f32⟩
  | 101 => ⟨S_, .f32⟩
  | 102 => ⟨S50000, .f32⟩
  | 103 => ⟨S50000, .f32⟩
  | 104 => ⟨S_, .f32⟩
  | 105 => ⟨S50000, .f32⟩
  | 106 => ⟨S_, .i32⟩
  | 107 => ⟨S200000, .i32⟩
  | 108 => ⟨S200000, .i1⟩
  | 109 => ⟨S_, .i32⟩
  | 110 => ⟨S200000, .i32⟩
  | 111 => ⟨S200000, .i32⟩
  | 112 => ⟨S200000, .i32⟩
  | 113 => ⟨S200000x1, .i32⟩
  | 114 => ⟨S_, .f32⟩
  | 115 => ⟨S200000, .f32⟩
  | 116 => ⟨S50000, .f32⟩
  | 117 => ⟨S_, .f32⟩
  | 118 => ⟨S50000, .f32⟩
  | 119 => ⟨S50000, .f32⟩
  | 120 => ⟨S50000x1, .f32⟩
  | 121 => ⟨S_, .f32⟩
  | 122 => ⟨S50000x1, .f32⟩
  | 123 => ⟨S50000x1, .f32⟩
  | 124 => ⟨S50000x11, .f32⟩
  | 125 => ⟨S50000x11, .f32⟩
  | 126 => ⟨S_, .i32⟩
  | 127 => ⟨S200000, .i32⟩
  | _ => ⟨S50000x4, .f32⟩

abbrev hbmTy0_1 (i : Nat) : BufTy := match i % 128 with
  | 0 => ⟨S200000, .i1⟩
  | 1 => ⟨S_, .i32⟩
  | 2 => ⟨S200000, .i32⟩
  | 3 => ⟨S200000, .i32⟩
  | 4 => ⟨S200000, .i32⟩
  | 5 => ⟨S200000x1, .i32⟩
  | 6 => ⟨S200000x11, .f32⟩
  | 7 => ⟨S200000x11, .f32⟩
  | 8 => ⟨S_, .f32⟩
  | 9 => ⟨S50000x11, .f32⟩
  | 10 => ⟨S200000x1, .i32⟩
  | 11 => ⟨S50000x11, .f32⟩
  | 12 => ⟨S50000x512, .f32⟩
  | 13 => ⟨S50000x1, .f32⟩
  | 14 => ⟨S_, .f32⟩
  | 15 => ⟨S50000x1, .f32⟩
  | 16 => ⟨S50000x1, .f32⟩
  | 17 => ⟨S50000x512, .f32⟩
  | 18 => ⟨S50000x512, .f32⟩
  | 19 => ⟨S1x512, .f32⟩
  | 20 => ⟨S50000x512, .f32⟩
  | 21 => ⟨S50000x512, .f32⟩
  | 22 => ⟨S_, .f32⟩
  | 23 => ⟨S50000x512, .f32⟩
  | 24 => ⟨S50000x512, .f32⟩
  | 25 => ⟨S_, .f32⟩
  | 26 => ⟨S50000, .f32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S_, .f32⟩
  | 36 => ⟨S200000, .f32⟩
  | 37 => ⟨S50000, .f32⟩
  | 38 => ⟨S_, .f32⟩
  | 39 => ⟨S50000, .f32⟩
  | 40 => ⟨S50000, .f32⟩
  | 41 => ⟨S_, .f32⟩
  | 42 => ⟨S50000, .f32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S200000x1, .i32⟩
  | 51 => ⟨S_, .f32⟩
  | 52 => ⟨S200000, .f32⟩
  | 53 => ⟨S50000, .f32⟩
  | 54 => ⟨S_, .f32⟩
  | 55 => ⟨S50000, .f32⟩
  | 56 => ⟨S50000, .f32⟩
  | 57 => ⟨S50000x1, .f32⟩
  | 58 => ⟨S_, .f32⟩
  | 59 => ⟨S50000x1, .f32⟩
  | 60 => ⟨S50000x1, .f32⟩
  | 61 => ⟨S50000x512, .f32⟩
  | 62 => ⟨S50000x512, .f32⟩
  | 63 => ⟨S_, .i32⟩
  | 64 => ⟨S200000, .i32⟩
  | 65 => ⟨S200000, .i1⟩
  | 66 => ⟨S_, .i32⟩
  | 67 => ⟨S200000, .i32⟩
  | 68 => ⟨S200000, .i32⟩
  | 69 => ⟨S200000, .i32⟩
  | 70 => ⟨S200000x1, .i32⟩
  | 71 => ⟨S200000x512, .f32⟩
  | 72 => ⟨S_, .f32⟩
  | 73 => ⟨S50000x512, .f32⟩
  | 74 => ⟨S200000x1, .i32⟩
  | 75 => ⟨S50000x512, .f32⟩
  | 76 => ⟨S50000x1024, .f32⟩
  | 77 => ⟨S50000x1, .f32⟩
  | 78 => ⟨S_, .f32⟩
  | 79 => ⟨S50000x1, .f32⟩
  | 80 => ⟨S50000x1, .f32⟩
  | 81 => ⟨S50000x1024, .f32⟩
  | 82 => ⟨S50000x1024, .f32⟩
  | 83 => ⟨S1x1024, .f32⟩
  | 84 => ⟨S50000x1024, .f32⟩
  | 85 => ⟨S50000x1024, .f32⟩
  | 86 => ⟨S_, .f32⟩
  | 87 => ⟨S1024, .f32⟩
  | 88 => ⟨S1x1024, .f32⟩
  | 89 => ⟨S_, .f32⟩
  | 90 => ⟨S1x1024, .f32⟩
  | 91 => ⟨S1x1024, .f32⟩
  | 92 => ⟨S1x2048, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S1x1, .f32⟩
  | 99 => ⟨S1x1, .f32⟩
  | 100 => ⟨S1x1, .f32⟩
  | 101 => ⟨S1x2048, .f32⟩
  | 102 => ⟨S1x2048, .f32⟩
  | 103 => ⟨S1x2048, .f32⟩
  | 104 => ⟨S_, .f32⟩
  | 105 => ⟨S1x2048, .f32⟩
  | 106 => ⟨S1x2048, .f32⟩
  | 107 => ⟨S1x1000, .f32⟩
  | 108 => ⟨S1x1000, .f32⟩
  | 109 => ⟨S1x1000, .f32⟩
  | 110 => ⟨S_, .f32⟩
  | 111 => ⟨S_, .f32⟩
  | 112 => ⟨S_, .f32⟩
  | 113 => ⟨S_, .f32⟩
  | 114 => ⟨S1x1000, .f32⟩
  | 115 => ⟨S1x1000, .f32⟩
  | 116 => ⟨S1x1000, .f32⟩
  | 117 => ⟨S1x1000, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_c_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_cst_4 : Ref sig .tc := ⟨.hbm, 40, rfl⟩
abbrev main_v16 : Ref sig .tc := ⟨.hbm, 41, rfl⟩
abbrev main_c_5 : Ref sig .tc := ⟨.hbm, 42, rfl⟩
abbrev main_v17 : Ref sig .tc := ⟨.hbm, 43, rfl⟩
abbrev main_v18 : Ref sig .tc := ⟨.hbm, 44, rfl⟩
abbrev main_c_6 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_7 : Ref sig .tc := ⟨.hbm, 50, rfl⟩
abbrev main_v23 : Ref sig .tc := ⟨.hbm, 51, rfl⟩
abbrev main_v24 : Ref sig .tc := ⟨.hbm, 52, rfl⟩
abbrev main_cst_8 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_9 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_10 : Ref sig .tc := ⟨.hbm, 62, rfl⟩
abbrev main_v32 : Ref sig .tc := ⟨.hbm, 63, rfl⟩
abbrev main_v33 : Ref sig .tc := ⟨.hbm, 64, rfl⟩
abbrev main_c_11 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_12 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_13 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_call0_cst : Ref sig .tc := ⟨.hbm, 85, rfl⟩
abbrev main_call0_v0 : Ref sig .tc := ⟨.hbm, 86, rfl⟩
abbrev main_v51 : Ref sig .tc := ⟨.hbm, 87, rfl⟩
abbrev main_cst_14 : Ref sig .tc := ⟨.hbm, 88, rfl⟩
abbrev main_v52 : Ref sig .tc := ⟨.hbm, 89, rfl⟩
abbrev main_c_15 : Ref sig .tc := ⟨.hbm, 90, rfl⟩
abbrev main_v53 : Ref sig .tc := ⟨.hbm, 91, rfl⟩
abbrev main_v54 : Ref sig .tc := ⟨.hbm, 92, rfl⟩
abbrev main_c_16 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_17 : Ref sig .tc := ⟨.hbm, 98, rfl⟩
abbrev main_v59 : Ref sig .tc := ⟨.hbm, 99, rfl⟩
abbrev main_v60 : Ref sig .tc := ⟨.hbm, 100, rfl⟩
abbrev main_cst_18 : Ref sig .tc := ⟨.hbm, 101, rfl⟩
abbrev main_v61 : Ref sig .tc := ⟨.hbm, 102, rfl⟩
abbrev main_v62 : Ref sig .tc := ⟨.hbm, 103, rfl⟩
abbrev main_cst_19 : Ref sig .tc := ⟨.hbm, 104, rfl⟩
abbrev main_v63 : Ref sig .tc := ⟨.hbm, 105, rfl⟩
abbrev main_c_20 : Ref sig .tc := ⟨.hbm, 106, rfl⟩
abbrev main_v64 : Ref sig .tc := ⟨.hbm, 107, rfl⟩
abbrev main_v65 : Ref sig .tc := ⟨.hbm, 108, rfl⟩
abbrev main_c_21 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_22 : Ref sig .tc := ⟨.hbm, 114, rfl⟩
abbrev main_v70 : Ref sig .tc := ⟨.hbm, 115, rfl⟩
abbrev main_v71 : Ref sig .tc := ⟨.hbm, 116, rfl⟩
abbrev main_cst_23 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_24 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_c_25 : Ref sig .tc := ⟨.hbm, 126, rfl⟩
abbrev main_v79 : Ref sig .tc := ⟨.hbm, 127, rfl⟩
abbrev main_v80 : Ref sig .tc := ⟨.hbm, 128, rfl⟩
abbrev main_c_26 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_27 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_28 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_call1_cst : Ref sig .tc := ⟨.hbm, 150, rfl⟩
abbrev main_call1_v0 : Ref sig .tc := ⟨.hbm, 151, rfl⟩
abbrev main_v99 : Ref sig .tc := ⟨.hbm, 152, rfl⟩
abbrev main_cst_29 : Ref sig .tc := ⟨.hbm, 153, rfl⟩
abbrev main_v100 : Ref sig .tc := ⟨.hbm, 154, rfl⟩
abbrev main_c_30 : Ref sig .tc := ⟨.hbm, 155, rfl⟩
abbrev main_v101 : Ref sig .tc := ⟨.hbm, 156, rfl⟩
abbrev main_v102 : Ref sig .tc := ⟨.hbm, 157, rfl⟩
abbrev main_c_31 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_32 : Ref sig .tc := ⟨.hbm, 163, rfl⟩
abbrev main_v107 : Ref sig .tc := ⟨.hbm, 164, rfl⟩
abbrev main_v108 : Ref sig .tc := ⟨.hbm, 165, rfl⟩
abbrev main_cst_33 : Ref sig .tc := ⟨.hbm, 166, rfl⟩
abbrev main_v109 : Ref sig .tc := ⟨.hbm, 167, rfl⟩
abbrev main_v110 : Ref sig .tc := ⟨.hbm, 168, rfl⟩
abbrev main_cst_34 : Ref sig .tc := ⟨.hbm, 169, rfl⟩
abbrev main_v111 : Ref sig .tc := ⟨.hbm, 170, rfl⟩
abbrev main_c_35 : Ref sig .tc := ⟨.hbm, 171, rfl⟩
abbrev main_v112 : Ref sig .tc := ⟨.hbm, 172, rfl⟩
abbrev main_v113 : Ref sig .tc := ⟨.hbm, 173, rfl⟩
abbrev main_c_36 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_cst_37 : Ref sig .tc := ⟨.hbm, 179, rfl⟩
abbrev main_v118 : Ref sig .tc := ⟨.hbm, 180, rfl⟩
abbrev main_v119 : Ref sig .tc := ⟨.hbm, 181, rfl⟩
abbrev main_cst_38 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_cst_39 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_c_40 : Ref sig .tc := ⟨.hbm, 191, rfl⟩
abbrev main_v127 : Ref sig .tc := ⟨.hbm, 192, rfl⟩
abbrev main_v128 : Ref sig .tc := ⟨.hbm, 193, rfl⟩
abbrev main_c_41 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_cst_42 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_cst_43 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_cst_44 : Ref sig .tc := ⟨.hbm, 214, rfl⟩
abbrev main_v146 : Ref sig .tc := ⟨.hbm, 215, rfl⟩
abbrev main_v147 : Ref sig .tc := ⟨.hbm, 216, rfl⟩
abbrev main_cst_45 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_call2_cst : Ref sig .tc := ⟨.hbm, 223, rfl⟩
abbrev main_call2_v0 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_call3_cst : Ref sig .tc := ⟨.hbm, 232, rfl⟩
abbrev main_call3_v0 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_cst_46 : Ref sig .tc := ⟨.hbm, 238, rfl⟩
abbrev main_v164 : Ref sig .tc := ⟨.hbm, 239, rfl⟩
abbrev main_cst_47 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩

abbrev nD : Nat := 1
abbrev τ : Topo := Topo.v7x

variable {F : FTy → Type} [FloatOps F]

class Facts₀ : Prop where
  concatenates_S150000_S50000_S200000_d0 : Shape.Concatenates [S150000, S50000] S200000 0
  bcast_S_S50000x11 : S_.BroadcastsInDim S50000x11 (![] : Fin 0 → Fin S50000x11.rank)
  concatenates_S150000x11_S50000x11_S200000x11_d0 : Shape.Concatenates [S150000x11, S50000x11] S200000x11 0
  bcast_S_S50000 : S_.BroadcastsInDim S50000 (![] : Fin 0 → Fin S50000.rank)
  bcast_S_S200000 : S_.BroadcastsInDim S200000 (![] : Fin 0 → Fin S200000.rank)
  bcast_S200000_S200000x1_0 : S200000.BroadcastsInDim S200000x1 (![0] : Fin 1 → Fin S200000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x4_0_1 : S50000x1.BroadcastsInDim S50000x4 (![0, 1] : Fin 2 → Fin S50000x4.rank)
  bcast_S_S50000x4 : S_.BroadcastsInDim S50000x4 (![] : Fin 0 → Fin S50000x4.rank)
  bcast_S50000x1_S50000x11_0_1 : S50000x1.BroadcastsInDim S50000x11 (![0, 1] : Fin 2 → Fin S50000x11.rank)
  bcast_S11_S1x11_1 : S11.BroadcastsInDim S1x11 (![1] : Fin 1 → Fin S1x11.rank)
  bcast_S1x11_S50000x11_0_1 : S1x11.BroadcastsInDim S50000x11 (![0, 1] : Fin 2 → Fin S50000x11.rank)
  bcast_S50000x1_S50000x512_0_1 : S50000x1.BroadcastsInDim S50000x512 (![0, 1] : Fin 2 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S50000x1_S50000x1024_0_1 : S50000x1.BroadcastsInDim S50000x1024 (![0, 1] : Fin 2 → Fin S50000x1024.rank)
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  reducesTo_S50000x1024_S1024_d0 : S50000x1024.ReducesTo [0] S1024
  h_S_ : 0 < S_.numel
  bcast_S_S1x1024 : S_.BroadcastsInDim S1x1024 (![] : Fin 0 → Fin S1x1024.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1_S1x1_1 : S1.BroadcastsInDim S1x1 (![1] : Fin 1 → Fin S1x1.rank)
  bcast_S1000_S1x1000_1 : S1000.BroadcastsInDim S1x1000 (![1] : Fin 1 → Fin S1x1000.rank)
  reducesTo_S1x1000_S_d0_1 : S1x1000.ReducesTo [0, 1] S_
  bcast_S_S1x1000 : S_.BroadcastsInDim S1x1000 (![] : Fin 0 → Fin S1x1000.rank)
  bcast_S1x1_S1x1000_0_1 : S1x1.BroadcastsInDim S1x1000 (![0, 1] : Fin 2 → Fin S1x1000.rank)
  scatter_S50000_S200000x1_S200000_n_0_0_1_wf : ScatterDims.WF S50000 S200000x1 S200000 [] [0] [0] 1
  gather_S50000x4_S200000x1_S200000x4_1_0_n_n_0_1_14_wf : GatherDims.WF S50000x4 S200000x1 S200000x4 [1] [0] [] [0] [] 1 ![1, 4]
  scatter_S50000x4_S200000x1_S200000x4_1_0_0_1_wf : ScatterDims.WF S50000x4 S200000x1 S200000x4 [1] [0] [0] 1
  dot_S50000x4_S4x11_S50000x11_1_0_0_1_n_n_wf : DotDims.WF S50000x4 S4x11 S50000x11 [1] [0] [0] [1] [] []
  gather_S50000x11_S200000x1_S200000x11_1_0_n_n_0_1_111_wf : GatherDims.WF S50000x11 S200000x1 S200000x11 [1] [0] [] [0] [] 1 ![1, 11]
  scatter_S50000x11_S200000x1_S200000x11_1_0_0_1_wf : ScatterDims.WF S50000x11 S200000x1 S200000x11 [1] [0] [0] 1
  dot_S50000x11_S11x512_S50000x512_1_0_0_1_n_n_wf : DotDims.WF S50000x11 S11x512 S50000x512 [1] [0] [0] [1] [] []
  gather_S50000x512_S200000x1_S200000x512_1_0_n_n_0_1_1512_wf : GatherDims.WF S50000x512 S200000x1 S200000x512 [1] [0] [] [0] [] 1 ![1, 512]
  scatter_S50000x512_S200000x1_S200000x512_1_0_0_1_wf : ScatterDims.WF S50000x512 S200000x1 S200000x512 [1] [0] [0] 1
  dot_S50000x512_S512x1024_S50000x1024_1_0_0_1_n_n_wf : DotDims.WF S50000x512 S512x1024 S50000x1024 [1] [0] [0] [1] [] []
  dot_S1x1024_S1024x2048_S1x2048_1_0_0_1_n_n_wf : DotDims.WF S1x1024 S1024x2048 S1x2048 [1] [0] [0] [1] [] []
  dot_S1x2048_S2048x1_S1x1_1_0_0_1_n_n_wf : DotDims.WF S1x2048 S2048x1 S1x1 [1] [0] [0] [1] [] []
  dot_S1x2048_S2048x1000_S1x1000_1_0_0_1_n_n_wf : DotDims.WF S1x2048 S2048x1000 S1x1000 [1] [0] [0] [1] [] []

variable [Facts₀]

def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def gather_S50000x4_S200000x1_S200000x4_1_0_n_n_0_1_14 : GatherDims S50000x4 S200000x1 S200000x4 where
  offsetDims := [1]
  collapsedSliceDims := [0]
  operandBatchingDims := []
  startIndicesBatchingDims := []
  startIndexMap := [0]
  indexVectorDim := 1
  sliceSizes := ![1, 4]
  wf := gather_S50000x4_S200000x1_S200000x4_1_0_n_n_0_1_14_wf
def scatter_S50000x4_S200000x1_S200000x4_1_0_0_1 : ScatterDims S50000x4 S200000x1 S200000x4 where
  updateWindowDims := [1]
  insertedWindowDims := [0]
  scatterDimsToOperandDims := [0]
  indexVectorDim := 1
  wf := scatter_S50000x4_S200000x1_S200000x4_1_0_0_1_wf
def dot_S50000x4_S4x11_S50000x11_1_0_0_1_n_n : DotDims S50000x4 S4x11 S50000x11 where
  lhsContracting := [1]
  rhsContracting := [0]
  lhsNonContracting := [0]
  rhsNonContracting := [1]
  lhsBatch := []
  rhsBatch := []
  wf := dot_S50000x4_S4x11_S50000x11_1_0_0_1_n_n_wf
def gather_S50000x11_S200000x1_S200000x11_1_0_n_n_0_1_111 : GatherDims S50000x11 S200000x1 S200000x11 where
  offsetDims := [1]
  collapsedSliceDims := [0]
  operandBatchingDims := []
  startIndicesBatchingDims := []
  startIndexMap := [0]
  indexVectorDim := 1
  sliceSizes := ![1, 11]
  wf := gather_S50000x11_S200000x1_S200000x11_1_0_n_n_0_1_111_wf
def scatter_S50000x11_S200000x1_S200000x11_1_0_0_1 : ScatterDims S50000x11 S200000x1 S200000x11 where
  updateWindowDims := [1]
  insertedWindowDims := [0]
  scatterDimsToOperandDims := [0]
  indexVectorDim := 1
  wf := scatter_S50000x11_S200000x1_S200000x11_1_0_0_1_wf
def dot_S50000x11_S11x512_S50000x512_1_0_0_1_n_n : DotDims S50000x11 S11x512 S50000x512 where
  lhsContracting := [1]
  rhsContracting := [0]
  lhsNonContracting := [0]
  rhsNonContracting := [1]
  lhsBatch := []
  rhsBatch := []
  wf := dot_S50000x11_S11x512_S50000x512_1_0_0_1_n_n_wf
def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def scatter_S50000x512_S200000x1_S200000x512_1_0_0_1 : ScatterDims S50000x512 S200000x1 S200000x512 where
  updateWindowDims := [1]
  insertedWindowDims := [0]
  scatterDimsToOperandDims := [0]
  indexVectorDim := 1
  wf := scatter_S50000x512_S200000x1_S200000x512_1_0_0_1_wf
def dot_S50000x512_S512x1024_S50000x1024_1_0_0_1_n_n : DotDims S50000x512 S512x1024 S50000x1024 where
  lhsContracting := [1]
  rhsContracting := [0]
  lhsNonContracting := [0]
  rhsNonContracting := [1]
  lhsBatch := []
  rhsBatch := []
  wf := dot_S50000x512_S512x1024_S50000x1024_1_0_0_1_n_n_wf
def dot_S1x1024_S1024x2048_S1x2048_1_0_0_1_n_n : DotDims S1x1024 S1024x2048 S1x2048 where
  lhsContracting := [1]
  rhsContracting := [0]
  lhsNonContracting := [0]
  rhsNonContracting := [1]
  lhsBatch := []
  rhsBatch := []
  wf := dot_S1x1024_S1024x2048_S1x2048_1_0_0_1_n_n_wf
def dot_S1x2048_S2048x1_S1x1_1_0_0_1_n_n : DotDims S1x2048 S2048x1 S1x1 where
  lhsContracting := [1]
  rhsContracting := [0]
  lhsNonContracting := [0]
  rhsNonContracting := [1]
  lhsBatch := []
  rhsBatch := []
  wf := dot_S1x2048_S2048x1_S1x1_1_0_0_1_n_n_wf
def dot_S1x2048_S2048x1000_S1x1000_1_0_0_1_n_n : DotDims S1x2048 S2048x1000 S1x1000 where
  lhsContracting := [1]
  rhsContracting := [0]
  lhsNonContracting := [0]
  rhsNonContracting := [1]
  lhsBatch := []
  rhsBatch := []
  wf := dot_S1x2048_S2048x1000_S1x1000_1_0_0_1_n_n_wf

class Facts : Prop extends Facts₀ where

variable [Facts]
-- ==== Proof.KernelRun.lean ====
/-
  THE IDEALIZED KERNEL'S RUN WITH ITS RESULT NAMED.

  @main is three row-tiled dense-layer regions among stretches of host operations.  Every weakly fair execution from any
  memory with zero counters terminates, nothing faulting; the buffer contents at the boundaries between the segments
  are a fold from the launch memory — a stretch of host operations applies them in order, a region leaves each of its
  arrays at what its write-backs leave and every other buffer as it found it.  Read against the final state, the last
  boundary's contents give the result buffer (what the last stretch leaves there) and, walked back through the fold,
  each argument array as launched.
-/
import proofs.«124514_j69140383531493_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, each argument array as launched. -/
theorem run_result : θ_run defs (onTc (τ := τ) (main (F := F))) ⟨m, fun _ => 0, ρ⟩ (fun r => ∀ c : Dev nD,
      r.2.mem ((c.tc : Thread nD τ).loc main_v155) = W11 m ρ c (Proc.devRef .tc main_v155)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v155 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c)⟩)

end Cert.KernelIdeal.Hand

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibScaledDense.lean ====
/-
  THE DEGREE-SCALED DENSE LAYER, generic in its three extents.

  For an aggregate  x : [A, K],  a weight matrix  w : [K, B],  a bias row  b : [1, B]  and a column of scales
  d : [A, 1]  the layer is, at the output index (r, c),

      scaledDense x w b d (r, c)  =  (Σ_k x (r, k) · w (k, c)) · d (r, 0)  +  b (0, c)

  and  scaledDenseRelu  is its maximum with the zero word.  Here:

  * the layer at an index, in a kernel's spelling: a matmul of the (identically re-cast) aggregate block into the zero
    accumulator, times the scale column spread over the B columns, plus the bias row spread down the A rows, and then
    the maximum with a splat zero  (`kernel_scaledDense_apply`, `kernel_scaledDenseRelu_apply`);
  * the layer in the host's spelling: a dot_general, times the scale column broadcast over the columns, plus the bias
    vector laid as a row and broadcast down the rows, and then the maximum with a zero broadcast from rank 0
    (`host_scaledDense`, `host_scaledDenseRelu`);
  * row locality: a row of the layer depends on that row of x and of d only, so the layer of a block of rows is the
    block of the layer (`scaledDense_rows`, `scaledDenseRelu_rows`; stated by coordinates, for a block read off the
    whole arrays at rows shifted by an offset: `scaledDense_block`, `scaledDenseRelu_block`);
  * a bias vector [B] re-cast as the row [1, B] read at (0, c)  (`row_of_vec_apply`), and a [1, B] row spread down
    the rows read at (p, c)  (`broadcastTo_1b_ab_apply`).

  No sum is rearranged and nothing is cancelled: no finiteness is used.  Nothing here depends on a program.
-/
import Idealize.ShloMosaic.Lib.Pipeline.Value
import Idealize.ShloMosaic.Lib.ValueIdx
import Idealize.ShloMosaic.Lib.ValueLayout
import Idealize.ShloMosaic.PureOps.Ideal.Laws
import proofs.«124514_j69140383531493_1_alg».proof.Proof.LibPlainDot
import proofs.«124514_j69140383531493_1_alg».proof.Proof.LibKeepdims

noncomputable section

open scoped BigOperators

namespace Cert.Lib.ScaledDense

open Idealize.ShloMosaic Idealize.ShloMosaic.ValueIdx

variable {A K B : Nat}

/-- The degree-scaled dense layer at the output index (r, c): the plain product's entry, times row r's scale, plus
    column c's bias. -/
def scaledDense (x : (⟨2, ![A, K]⟩ : Shape).Idx → EReal) (w : (⟨2, ![K, B]⟩ : Shape).Idx → EReal)
    (b : (⟨2, ![1, B]⟩ : Shape).Idx → EReal) (d : (⟨2, ![A, 1]⟩ : Shape).Idx → EReal) :
    (⟨2, ![A, B]⟩ : Shape).Idx → EReal :=
  fun j => (∑ k : Fin K, x (ix2 (j 0) k) * w (ix2 k (j 1))) * d (ix2 (j 0) (0 : Fin 1)) + b (ix2 (0 : Fin 1) (j 1))

/-- The rectified layer: the maximum of the layer and the zero word. -/
def scaledDenseRelu (x : (⟨2, ![A, K]⟩ : Shape).Idx → EReal) (w : (⟨2, ![K, B]⟩ : Shape).Idx → EReal)
    (b : (⟨2, ![1, B]⟩ : Shape).Idx → EReal) (d : (⟨2, ![A, 1]⟩ : Shape).Idx → EReal) :
    (⟨2, ![A, B]⟩ : Shape).Idx → EReal :=
  fun j => max (scaledDense x w b d j) (Ideal.ofBits .f32 0x00000000#32)

theorem scaledDense_apply (x : (⟨2, ![A, K]⟩ : Shape).Idx → EReal) (w : (⟨2, ![K, B]⟩ : Shape).Idx → EReal)
    (b : (⟨2, ![1, B]⟩ : Shape).Idx → EReal) (d : (⟨2, ![A, 1]⟩ : Shape).Idx → EReal) (r : Fin A) (c : Fin B) :
    scaledDense x w b d (ix2 r c)
      = (∑ k : Fin K, x (ix2 r k) * w (ix2 k c)) * d (ix2 r (0 : Fin 1)) + b (ix2 (0 : Fin 1) c) := rfl

theorem scaledDenseRelu_apply (x : (⟨2, ![A, K]⟩ : Shape).Idx → EReal) (w : (⟨2, ![K, B]⟩ : Shape).Idx → EReal)
    (b : (⟨2, ![1, B]⟩ : Shape).Idx → EReal) (d : (⟨2, ![A, 1]⟩ : Shape).Idx → EReal) (r : Fin A) (c : Fin B) :
    scaledDenseRelu x w b d (ix2 r c)
      = max ((∑ k : Fin K, x (ix2 r k) * w (ix2 k c)) * d (ix2 r (0 : Fin 1)) + b (ix2 (0 : Fin 1) c))
          (Ideal.ofBits .f32 0x00000000#32) := rfl

/-- A [1, B] row spread down the A rows reads, at (p, c), the row's entry of column c. -/
theorem broadcastTo_1b_ab_apply {α : Type} (v : (⟨2, ![1, B]⟩ : Shape).Idx → α)
    (h : (⟨2, ![1, B]⟩ : Shape).Broadcasts ⟨2, ![A, B]⟩) (p : Fin A) (c : Fin B) :
    broadcastTo ⟨2, ![A, B]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if B = 1 then 0 else c.val
    split
    · have := c.isLt; omega
    · rfl

/-- A bias vector [B] re-cast as the row [1, B] reads, at (u, c), the vector's entry c. -/
theorem row_of_vec_apply {α : Type} (x : (⟨1, ![B]⟩ : Shape).Idx → α)
    (h : (⟨1, ![B]⟩ : Shape).ShapeCasts ⟨2, ![1, B]⟩) (u : Fin 1) (c : Fin B) :
    shapeCast ⟨2, ![1, B]⟩ x h (ix2 u c) = x (ix1 c) :=
  shapeCast_apply x h _ _ (by
    have hu : u.val = 0 := by omega
    rw [Shape.rowMajor_val_two, Shape.rowMajor_val_one]
    show c.val = u.val * B + c.val
    rw [hu]; omega)

/-- THE LAYER IN A KERNEL'S SPELLING, before the rectifier: the aggregate block (re-cast to its own shape) in a matmul
    with the weights into the zero accumulator, times the scale column (re-cast to its own shape) spread over the
    columns, plus the bias row (re-cast to its own shape) spread down the rows. -/
theorem kernel_scaledDense_apply (D : DotDims ⟨2, ![A, K]⟩ ⟨2, ![K, B]⟩ ⟨2, ![A, B]⟩)
    (h1 : D.lhsContracting = [1]) (h2 : D.rhsContracting = [0]) (h3 : D.lhsNonContracting = [0])
    (h4 : D.rhsNonContracting = [1]) (h5 : D.lhsBatch = []) (h6 : D.rhsBatch = [])
    (x : FVec Ideal ⟨2, ![A, K]⟩ .f32) (w : FVec Ideal ⟨2, ![K, B]⟩ .f32)
    (b : FVec Ideal ⟨2, ![1, B]⟩ .f32) (d : FVec Ideal ⟨2, ![A, 1]⟩ .f32)
    (hx : (⟨2, ![A, K]⟩ : Shape).ShapeCasts ⟨2, ![A, K]⟩) (hd : (⟨2, ![A, 1]⟩ : Shape).ShapeCasts ⟨2, ![A, 1]⟩)
    (hb : (⟨2, ![1, B]⟩ : Shape).ShapeCasts ⟨2, ![1, B]⟩)
    (hbd : (⟨2, ![A, 1]⟩ : Shape).Broadcasts ⟨2, ![A, B]⟩) (hbb : (⟨2, ![1, B]⟩ : Shape).Broadcasts ⟨2, ![A, B]⟩)
    (j : (⟨2, ![A, B]⟩ : Shape).Idx) :
    addf (mulf (matmul D none (shapeCast ⟨2, ![A, K]⟩ x hx) w (constant ⟨2, ![A, B]⟩ .f32 0x00000000#32))
            (broadcastTo ⟨2, ![A, B]⟩ (shapeCast ⟨2, ![A, 1]⟩ d hd) hbd))
         (broadcastTo ⟨2, ![A, B]⟩ (shapeCast ⟨2, ![1, B]⟩ b hb) hbb) j
      = scaledDense x w b d j := by
  obtain ⟨r, c, rfl⟩ : ∃ (r : Fin A) (c : Fin B), j = ix2 r c := ⟨j 0, j 1, eq_ix2 j⟩
  rw [Cert.Lib.PlainDot.eq_plain D h1 h2 h3 h4 h5 h6, shapeCast_self, shapeCast_self, shapeCast_self,
    addf_apply, mulf_apply, Cert.Lib.PlainDot.matmul_zero_plain_apply,
    Cert.LibKeepdims.broadcastTo_a1_ab_apply, broadcastTo_1b_ab_apply]
  rfl

/-- THE RECTIFIED LAYER IN A KERNEL'S SPELLING: the same, then the maximum with a splat of the zero word. -/
theorem kernel_scaledDenseRelu_apply (D : DotDims ⟨2, ![A, K]⟩ ⟨2, ![K, B]⟩ ⟨2, ![A, B]⟩)
    (h1 : D.lhsContracting = [1]) (h2 : D.rhsContracting = [0]) (h3 : D.lhsNonContracting = [0])
    (h4 : D.rhsNonContracting = [1]) (h5 : D.lhsBatch = []) (h6 : D.rhsBatch = [])
    (x : FVec Ideal ⟨2, ![A, K]⟩ .f32) (w : FVec Ideal ⟨2, ![K, B]⟩ .f32)
    (b : FVec Ideal ⟨2, ![1, B]⟩ .f32) (d : FVec Ideal ⟨2, ![A, 1]⟩ .f32)
    (hx : (⟨2, ![A, K]⟩ : Shape).ShapeCasts ⟨2, ![A, K]⟩) (hd : (⟨2, ![A, 1]⟩ : Shape).ShapeCasts ⟨2, ![A, 1]⟩)
    (hb : (⟨2, ![1, B]⟩ : Shape).ShapeCasts ⟨2, ![1, B]⟩)
    (hbd : (⟨2, ![A, 1]⟩ : Shape).Broadcasts ⟨2, ![A, B]⟩) (hbb : (⟨2, ![1, B]⟩ : Shape).Broadcasts ⟨2, ![A, B]⟩)
    (j : (⟨2, ![A, B]⟩ : Shape).Idx) :
    maximumf
        (addf (mulf (matmul D none (shapeCast ⟨2, ![A, K]⟩ x hx) w (constant ⟨2, ![A, B]⟩ .f32 0x00000000#32))
                (broadcastTo ⟨2, ![A, B]⟩ (shapeCast ⟨2, ![A, 1]⟩ d hd) hbd))
              (broadcastTo ⟨2, ![A, B]⟩ (shapeCast ⟨2, ![1, B]⟩ b hb) hbb))
        (broadcast ⟨2, ![A, B]⟩ (Scalar.ofBits (F := Ideal) .f32 0x00000000#32)) j
      = scaledDenseRelu x w b d j := by
  rw [maximumf_apply, kernel_scaledDense_apply D h1 h2 h3 h4 h5 h6 x w b d hx hd hb hbd hbb j]
  rfl

/-- ROW LOCALITY: the layer at row `o + p` of the whole arrays is the layer at row `p` of the block of rows starting at
    `o` (the aggregate's and the scale column's rows `o + p`; weights and bias whole). -/
theorem scaledDense_rows {A' : Nat} (X : (⟨2, ![A, K]⟩ : Shape).Idx → EReal) (w : (⟨2, ![K, B]⟩ : Shape).Idx → EReal)
    (b : (⟨2, ![1, B]⟩ : Shape).Idx → EReal) (Dc : (⟨2, ![A, 1]⟩ : Shape).Idx → EReal)
    (x : (⟨2, ![A', K]⟩ : Shape).Idx → EReal) (d : (⟨2, ![A', 1]⟩ : Shape).Idx → EReal)
    (R : Fin A) (p : Fin A') (c : Fin B)
    (hx : ∀ k : Fin K, x (ix2 p k) = X (ix2 R k)) (hd : d (ix2 p (0 : Fin 1)) = Dc (ix2 R (0 : Fin 1))) :
    scaledDense x w b d (ix2 p c) = scaledDense X w b Dc (ix2 R c) := by
  rw [scaledDense_apply, scaledDense_apply, hd]
  simp only [hx]

theorem scaledDenseRelu_rows {A' : Nat} (X : (⟨2, ![A, K]⟩ : Shape).Idx → EReal) (w : (⟨2, ![K, B]⟩ : Shape).Idx → EReal)
    (b : (⟨2, ![1, B]⟩ : Shape).Idx → EReal) (Dc : (⟨2, ![A, 1]⟩ : Shape).Idx → EReal)
    (x : (⟨2, ![A', K]⟩ : Shape).Idx → EReal) (d : (⟨2, ![A', 1]⟩ : Shape).Idx → EReal)
    (R : Fin A) (p : Fin A') (c : Fin B)
    (hx : ∀ k : Fin K, x (ix2 p k) = X (ix2 R k)) (hd : d (ix2 p (0 : Fin 1)) = Dc (ix2 R (0 : Fin 1))) :
    scaledDenseRelu x w b d (ix2 p c) = scaledDenseRelu X w b Dc (ix2 R c) := by
  rw [scaledDenseRelu_apply, scaledDenseRelu_apply, hd]
  simp only [hx]

/-- BLOCK LOCALITY, by coordinates.  Let `j` index a block of `A'` rows and `i` the whole array, with `i`'s row
    `o + ` `j`'s row and the same column.  If the block's aggregate `x` and scale column `d` read the whole arrays
    `X`, `Dc` at the rows shifted by `o`, then the layer of the block at `j` is the layer of the whole arrays at `i`. -/
theorem scaledDense_block {A' : Nat} (X : (⟨2, ![A, K]⟩ : Shape).Idx → EReal) (w : (⟨2, ![K, B]⟩ : Shape).Idx → EReal)
    (b : (⟨2, ![1, B]⟩ : Shape).Idx → EReal) (Dc : (⟨2, ![A, 1]⟩ : Shape).Idx → EReal)
    (x : (⟨2, ![A', K]⟩ : Shape).Idx → EReal) (w' : (⟨2, ![K, B]⟩ : Shape).Idx → EReal)
    (b' : (⟨2, ![1, B]⟩ : Shape).Idx → EReal) (d : (⟨2, ![A', 1]⟩ : Shape).Idx → EReal)
    (o : Nat) (i : (⟨2, ![A, B]⟩ : Shape).Idx) (j : (⟨2, ![A', B]⟩ : Shape).Idx)
    (hi0 : (i 0).val = o + (j 0).val) (hi1 : (i 1).val = (j 1).val)
    (hx : ∀ (y : (⟨2, ![A', K]⟩ : Shape).Idx) (z : (⟨2, ![A, K]⟩ : Shape).Idx),
      (z 0).val = o + (y 0).val → (z 1).val = (y 1).val → x y = X z)
    (hd : ∀ (y : (⟨2, ![A', 1]⟩ : Shape).Idx) (z : (⟨2, ![A, 1]⟩ : Shape).Idx),
      (z 0).val = o + (y 0).val → d y = Dc z)
    (hw : w' = w) (hb : b' = b) :
    scaledDense x w' b' d j = scaledDense X w b Dc i := by
  subst hw hb
  obtain ⟨R, c, rfl⟩ : ∃ (R : Fin A) (c : Fin B), i = ix2 R c := ⟨i 0, i 1, eq_ix2 i⟩
  obtain ⟨p, c', rfl⟩ : ∃ (p : Fin A') (c' : Fin B), j = ix2 p c' := ⟨j 0, j 1, eq_ix2 j⟩
  have hc : c' = c := Fin.ext hi1.symm
  subst hc
  exact scaledDense_rows X w' b' Dc x d R p c' (fun k => hx (ix2 p k) (ix2 R k) hi0 rfl)
    (hd (ix2 p (0 : Fin 1)) (ix2 R (0 : Fin 1)) hi0)

theorem scaledDenseRelu_block {A' : Nat} (X : (⟨2, ![A, K]⟩ : Shape).Idx → EReal) (w : (⟨2, ![K, B]⟩ : Shape).Idx → EReal)
    (b : (⟨2, ![1, B]⟩ : Shape).Idx → EReal) (Dc : (⟨2, ![A, 1]⟩ : Shape).Idx → EReal)
    (x : (⟨2, ![A', K]⟩ : Shape).Idx → EReal) (w' : (⟨2, ![K, B]⟩ : Shape).Idx → EReal)
    (b' : (⟨2, ![1, B]⟩ : Shape).Idx → EReal) (d : (⟨2, ![A', 1]⟩ : Shape).Idx → EReal)
    (o : Nat) (i : (⟨2, ![A, B]⟩ : Shape).Idx) (j : (⟨2, ![A', B]⟩ : Shape).Idx)
    (hi0 : (i 0).val = o + (j 0).val) (hi1 : (i 1).val = (j 1).val)
    (hx : ∀ (y : (⟨2, ![A', K]⟩ : Shape).Idx) (z : (⟨2, ![A, K]⟩ : Shape).Idx),
      (z 0).val = o + (y 0).val → (z 1).val = (y 1).val → x y = X z)
    (hd : ∀ (y : (⟨2, ![A', 1]⟩ : Shape).Idx) (z : (⟨2, ![A, 1]⟩ : Shape).Idx),
      (z 0).val = o + (y 0).val → d y = Dc z)
    (hw : w' = w) (hb : b' = b) :
    scaledDenseRelu x w' b' d j = scaledDenseRelu X w b Dc i := by
  unfold scaledDenseRelu
  rw [scaledDense_block X w b Dc x w' b' d o i j hi0 hi1 hx hd hw hb]

/-! ## The layer in the host's spelling -/

/-- An [A, 1] column spread over the B columns by a broadcast along both axes reads, at (r, c), the column's row r. -/
theorem bcastInDim_col_apply {α : Type} (d : (⟨2, ![A, 1]⟩ : Shape).Idx → α)
    (h : (⟨2, ![A, 1]⟩ : Shape).BroadcastsInDim ⟨2, ![A, B]⟩ ![0, 1]) (r : Fin A) (c : Fin B) :
    broadcastInDim ⟨2, ![A, B]⟩ ![0, 1] h d (ix2 r c) = d (ix2 r (0 : Fin 1)) := by
  refine broadcastInDim_apply _ h d (ix2 r c) (ix2 r (0 : Fin 1)) fun ax => ?_
  match ax with
  | ⟨0, _⟩ =>
    show r.val = if A = 1 then 0 else r.val
    split
    · have := r.isLt; omega
    · rfl
  | ⟨1, _⟩ => rfl

/-- A [1, B] row spread down the A rows by a broadcast along both axes reads, at (r, c), the row's column c. -/
theorem bcastInDim_row_apply {α : Type} (b : (⟨2, ![1, B]⟩ : Shape).Idx → α)
    (h : (⟨2, ![1, B]⟩ : Shape).BroadcastsInDim ⟨2, ![A, B]⟩ ![0, 1]) (r : Fin A) (c : Fin B) :
    broadcastInDim ⟨2, ![A, B]⟩ ![0, 1] h b (ix2 r c) = b (ix2 (0 : Fin 1) c) := by
  refine broadcastInDim_apply _ h b (ix2 r c) (ix2 (0 : Fin 1) c) fun ax => ?_
  match ax with
  | ⟨0, _⟩ => rfl
  | ⟨1, _⟩ =>
    show c.val = if B = 1 then 0 else c.val
    split
    · have := c.isLt; omega
    · rfl

/-- A vector [B] laid along axis 1 of a [1, B] row reads, at (u, c), the vector's entry c. -/
theorem bcastInDim_vec_row_apply {α : Type} (v : (⟨1, ![B]⟩ : Shape).Idx → α)
    (h : (⟨1, ![B]⟩ : Shape).BroadcastsInDim ⟨2, ![1, B]⟩ ![1]) (u : Fin 1) (c : Fin B) :
    broadcastInDim ⟨2, ![1, B]⟩ ![1] h v (ix2 u c) = v (ix1 c) := by
  refine broadcastInDim_apply _ h v (ix2 u c) (ix1 c) fun ax => ?_
  match ax with
  | ⟨0, _⟩ =>
    show c.val = if B = 1 then 0 else c.val
    split
    · have := c.isLt; omega
    · rfl

/-- THE LAYER IN THE HOST'S SPELLING, before the rectifier: a dot_general of the aggregate with the weights, times
    the scale column broadcast over the columns, plus the bias vector laid as a row and broadcast down the rows.
    The row the layer takes is the bias vector re-cast as [1, B]. -/
theorem host_scaledDense (D : DotDims ⟨2, ![A, K]⟩ ⟨2, ![K, B]⟩ ⟨2, ![A, B]⟩)
    (h1 : D.lhsContracting = [1]) (h2 : D.rhsContracting = [0]) (h3 : D.lhsNonContracting = [0])
    (h4 : D.rhsNonContracting = [1]) (h5 : D.lhsBatch = []) (h6 : D.rhsBatch = [])
    (x : FVec Ideal ⟨2, ![A, K]⟩ .f32) (w : FVec Ideal ⟨2, ![K, B]⟩ .f32)
    (bv : FVec Ideal ⟨1, ![B]⟩ .f32) (d : FVec Ideal ⟨2, ![A, 1]⟩ .f32)
    (hd : (⟨2, ![A, 1]⟩ : Shape).BroadcastsInDim ⟨2, ![A, B]⟩ ![0, 1])
    (hb1 : (⟨1, ![B]⟩ : Shape).BroadcastsInDim ⟨2, ![1, B]⟩ ![1])
    (hb2 : (⟨2, ![1, B]⟩ : Shape).BroadcastsInDim ⟨2, ![A, B]⟩ ![0, 1])
    (hrow : (⟨1, ![B]⟩ : Shape).ShapeCasts ⟨2, ![1, B]⟩) :
    addf (mulf (Host.dotGeneral D none x w) (broadcastInDim ⟨2, ![A, B]⟩ ![0, 1] hd d))
         (broadcastInDim ⟨2, ![A, B]⟩ ![0, 1] hb2 (broadcastInDim ⟨2, ![1, B]⟩ ![1] hb1 bv))
      = scaledDense x w (shapeCast ⟨2, ![1, B]⟩ bv hrow) d := by
  funext j
  obtain ⟨r, c, rfl⟩ : ∃ (r : Fin A) (c : Fin B), j = ix2 r c := ⟨j 0, j 1, eq_ix2 j⟩
  rw [Cert.Lib.PlainDot.eq_plain D h1 h2 h3 h4 h5 h6, addf_apply, mulf_apply,
    Cert.Lib.PlainDot.dotGeneral_plain_apply, bcastInDim_col_apply, bcastInDim_row_apply, bcastInDim_vec_row_apply,
    scaledDense_apply, row_of_vec_apply]
  rfl

/-- THE RECTIFIED LAYER IN THE HOST'S SPELLING: the same, then the maximum with the zero word broadcast from rank 0. -/
theorem host_scaledDenseRelu (D : DotDims ⟨2, ![A, K]⟩ ⟨2, ![K, B]⟩ ⟨2, ![A, B]⟩)
    (h1 : D.lhsContracting = [1]) (h2 : D.rhsContracting = [0]) (h3 : D.lhsNonContracting = [0])
    (h4 : D.rhsNonContracting = [1]) (h5 : D.lhsBatch = []) (h6 : D.rhsBatch = [])
    (x : FVec Ideal ⟨2, ![A, K]⟩ .f32) (w : FVec Ideal ⟨2, ![K, B]⟩ .f32)
    (bv : FVec Ideal ⟨1, ![B]⟩ .f32) (d : FVec Ideal ⟨2, ![A, 1]⟩ .f32)
    (hd : (⟨2, ![A, 1]⟩ : Shape).BroadcastsInDim ⟨2, ![A, B]⟩ ![0, 1])
    (hb1 : (⟨1, ![B]⟩ : Shape).BroadcastsInDim ⟨2, ![1, B]⟩ ![1])
    (hb2 : (⟨2, ![1, B]⟩ : Shape).BroadcastsInDim ⟨2, ![A, B]⟩ ![0, 1])
    (h0 : (⟨0, ![]⟩ : Shape).BroadcastsInDim ⟨2, ![A, B]⟩ ![])
    (hrow : (⟨1, ![B]⟩ : Shape).ShapeCasts ⟨2, ![1, B]⟩) :
    maximumf
        (addf (mulf (Host.dotGeneral D none x w) (broadcastInDim ⟨2, ![A, B]⟩ ![0, 1] hd d))
              (broadcastInDim ⟨2, ![A, B]⟩ ![0, 1] hb2 (broadcastInDim ⟨2, ![1, B]⟩ ![1] hb1 bv)))
        (broadcastInDim ⟨2, ![A, B]⟩ ![] h0 (constant (F := Ideal) ⟨0, ![]⟩ .f32 0x00000000#32))
      = scaledDenseRelu x w (shapeCast ⟨2, ![1, B]⟩ bv hrow) d := by
  funext j
  rw [maximumf_apply, host_scaledDense D h1 h2 h3 h4 h5 h6 x w bv d hd hb1 hb2 hrow,
    broadcastInDim_apply _ h0 _ j (fun a => a.elim0) (fun a => a.elim0)]
  rfl

end Cert.Lib.ScaledDense

end
-- ==== Proof.Region0Value.lean ====
/-
  REGION 0 OF THE KERNEL: ITS OUTPUT ARRAY IS THE RECTIFIED DEGREE-SCALED DENSE LAYER OF ITS INPUT ARRAYS.

  The region tiles the 50000 rows in 25 blocks of 2000.  At grid point t it reads rows 2000·t … 2000·t + 1999 of the
  aggregate [50000, 4] and of the scale column [50000, 1], the whole weight matrix [4, 11] and the whole bias row
  [1, 11], and writes rows 2000·t … 2000·t + 1999 of the output [50000, 11]:

      out (r, c) = max ((Σ_k agg (r, k) · W (k, c)) · scale (r, 0) + bias (0, c)) 0.

  A row of the layer depends on that row of the aggregate and of the scale column only, so what point t writes back is
  block t of the layer of the WHOLE arrays; the 25 blocks cover the output (row r lies in block r / 2000); hence the
  output array after the region is the layer of the arrays the region found — whatever those contents are.
-/
import proofs.«124514_j69140383531493_1_alg».proof.Proof.Gen.KernelIdeal.Frame
import proofs.«124514_j69140383531493_1_alg».proof.Proof.LibScaledDense
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Lib.ScaledDense

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds: aggregate, weights, bias row, scale column. -/
def layer (c : Dev nD) : S50000x11.Idx → EReal :=
  scaledDenseRelu (V c main_v41 : S50000x4.Idx → EReal) (V c main_arg2 : S4x11.Idx → EReal)
    (V c main_v45 : S1x11.Idx → EReal) (V c main_v44 : S50000x1.Idx → EReal)

/-- The body's stored value, read at an index, is the layer of the blocks it loaded. -/
theorem pay_apply (x0 : Vec Ideal S2000x4 .f32) (x1 : Vec Ideal S4x11 .f32) (x3 : Vec Ideal S2000x1 .f32)
    (x2 : Vec Ideal S1x11 .f32) (j : S2000x11.Idx) :
    k0_pay1 x0 x1 x3 x2 j = scaledDenseRelu x0 x1 x2 x3 j := by
  unfold k0_pay1
  exact kernel_scaledDenseRelu_apply dot_S2000x4_S4x11_S2000x11_1_0_0_1_n_n rfl rfl rfl rfl rfl rfl x0 x1 x2 x3 _ _ _ _ _ j

/-- The printed index maps over the grid: the row-tiled windows are at block (t, 0), the whole ones at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The aggregate's block at point t is rows 2000·t … of the aggregate. -/
theorem agg_block (c : Dev nD) (t : Fin cfg0.N) (y : S2000x4.Idx) (z : S50000x4.Idx)
    (h0 : (z 0).val = t.val * 2000 + (y 0).val) (h1 : (z 1).val = (y 1).val) :
    (iblk0 V c 0 t : S2000x4.Idx → EReal) y = (V c main_v41 : S50000x4.Idx → EReal) z := by
  obtain ⟨e0, e1, -⟩ := idx_facts t
  unfold iblk0
  rw [View.read_apply]
  show (V c main_v41 : S50000x4.Idx → EReal) _ = (V c main_v41 : S50000x4.Idx → EReal) _
  refine congrArg _ (funext fun a => Fin.ext ?_)
  match a with
  | ⟨0, _⟩ => show win0_0.index t (0 : Fin 2) * 2000 + 1 * (y 0).val = (z 0).val; rw [e0, h0]; omega
  | ⟨1, _⟩ => show win0_0.index t (1 : Fin 2) * 4 + 1 * (y 1).val = (z 1).val; rw [e1, h1]; omega

/-- The scale column's block at point t is rows 2000·t … of the scale column. -/
theorem scale_block (c : Dev nD) (t : Fin cfg0.N) (y : S2000x1.Idx) (z : S50000x1.Idx)
    (h0 : (z 0).val = t.val * 2000 + (y 0).val) :
    (iblk0 V c 3 t : S2000x1.Idx → EReal) y = (V c main_v44 : S50000x1.Idx → EReal) z := by
  obtain ⟨-, -, -, -, -, -, e0, e1, -⟩ := idx_facts t
  have hy1 : (y 1).val = 0 := by have h : (y 1).val < 1 := (y 1).isLt; omega
  have hz1 : (z 1).val = 0 := by have h : (z 1).val < 1 := (z 1).isLt; omega
  unfold iblk0
  rw [View.read_apply]
  show (V c main_v44 : S50000x1.Idx → EReal) _ = (V c main_v44 : S50000x1.Idx → EReal) _
  refine congrArg _ (funext fun a => Fin.ext ?_)
  match a with
  | ⟨0, _⟩ => show win0_3.index t (0 : Fin 2) * 2000 + 1 * (y 0).val = (z 0).val; rw [e0, h0]; omega
  | ⟨1, _⟩ => show win0_3.index t (1 : Fin 2) * 1 + 1 * (y 1).val = (z 1).val; rw [e1, hy1, hz1]

/-- The weights' block at any point is the whole weight matrix. -/
theorem weights_block (c : Dev nD) (t : Fin cfg0.N) :
    (iblk0 V c 1 t : S4x11.Idx → EReal) = (V c main_arg2 : S4x11.Idx → EReal) := by
  obtain ⟨-, -, e0, e1, -⟩ := idx_facts t
  funext y
  unfold iblk0
  rw [View.read_apply]
  show (V c main_arg2 : S4x11.Idx → EReal) _ = (V c main_arg2 : S4x11.Idx → EReal) _
  refine congrArg _ (funext fun a => Fin.ext ?_)
  match a with
  | ⟨0, _⟩ => show win0_1.index t (0 : Fin 2) * 4 + 1 * (y 0).val = (y 0).val; rw [e0]; omega
  | ⟨1, _⟩ => show win0_1.index t (1 : Fin 2) * 11 + 1 * (y 1).val = (y 1).val; rw [e1]; omega

/-- The bias row's block at any point is the whole bias row. -/
theorem bias_block (c : Dev nD) (t : Fin cfg0.N) :
    (iblk0 V c 2 t : S1x11.Idx → EReal) = (V c main_v45 : S1x11.Idx → EReal) := by
  obtain ⟨-, -, -, -, e0, e1, -⟩ := idx_facts t
  funext y
  unfold iblk0
  rw [View.read_apply]
  show (V c main_v45 : S1x11.Idx → EReal) _ = (V c main_v45 : S1x11.Idx → EReal) _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 11 + 1 * (y 1).val = (y 1).val; rw [e1]; omega

/-- WHAT POINT t WRITES BACK is block t of the layer of the whole arrays. -/
theorem flushed_eq (c : Dev nD) (t : Fin cfg0.N) :
    (dat0 V c).flushed 4 t = ((cfg0.win 4).blk t).view.read (Elt Ideal) (layer V c) := by
  obtain ⟨-, -, -, -, -, -, -, -, e0, e1⟩ := idx_facts t
  show (cfg0.win 4).cut (grid0.coords t) ((dat0 V c).after 4 t) = _
  rw [after0_4]
  unfold out0_4
  rw [View.canon_unit_zero hz]
  simp only [View.ld_unit_zero (S := S2000x4) hz, View.ld_unit_zero (S := S4x11) hz, View.ld_unit_zero (S := S1x11) hz,
    View.ld_unit_zero (S := S2000x1) hz]
  funext j
  show k0_pay1 (iblk0 V c 0 t) (iblk0 V c 1 t) (iblk0 V c 3 t) (iblk0 V c 2 t) j
      = layer V c (((cfg0.win 4).blk t).view.emb j)
  refine (pay_apply _ _ _ _ j).trans ?_
  unfold layer
  refine scaledDenseRelu_block _ _ _ _ _ _ _ _ (t.val * 2000) _ j ?_ ?_ (fun y z h0 h1 => agg_block V c t y z h0 h1)
    (fun y z h0 => scale_block V c t y z h0) (weights_block V c t) (bias_block V c t)
  · show win0_4.index t (0 : Fin 2) * 2000 + 1 * (j 0).val = t.val * 2000 + (j 0).val; rw [e0]; omega
  · show win0_4.index t (1 : Fin 2) * 11 + 1 * (j 1).val = (j 1).val; rw [e1]; omega

/-- An index of the output is in point t's block iff each coordinate is in the block's range on its axis. -/
theorem mem_blk (t : Fin cfg0.N) (i : S50000x11.Idx) :
    i ∈ ((cfg0.win 4).blk t).view.set ↔ ∀ a : Fin 2, win0_4.index t a * S2000x11.size a ≤ (i a).val
      ∧ (i a).val < win0_4.index t a * S2000x11.size a + S2000x11.size a := by
  show i ∈ ((View.whole main_v46).slice (win0_4.rect t)).set ↔ _
  rw [View.set_slice_whole, Rect.mem_set_unit]
  exact Iff.rfl

/-- Every index of the output is in some point's block: row r in block r / 2000. -/
theorem cover (i : S50000x11.Idx) :
    ∃ t : Fin cfg0.N, (cfg0.win 4).flush t = true ∧ i ∈ ((cfg0.win 4).blk t).view.set := by
  have hi0 : (i 0).val < 50000 := (i 0).isLt
  have hi1 : (i 1).val < 11 := (i 1).isLt
  have hN : (i 0).val / 2000 < cfg0.N := by rw [show cfg0.N = 25 from N_0]; omega
  obtain ⟨-, -, -, -, -, -, -, -, e0, e1⟩ := idx_facts ⟨(i 0).val / 2000, hN⟩
  refine ⟨⟨(i 0).val / 2000, hN⟩, flush0_4 _, ?_⟩
  rw [mem_blk]
  intro a
  match a with
  | ⟨0, _⟩ =>
    show win0_4.index ⟨(i 0).val / 2000, hN⟩ (0 : Fin 2) * 2000 ≤ (i 0).val
      ∧ (i 0).val < win0_4.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_4.index ⟨(i 0).val / 2000, hN⟩ (1 : Fin 2) * 11 ≤ (i 1).val
      ∧ (i 1).val < win0_4.index ⟨(i 0).val / 2000, hN⟩ (1 : Fin 2) * 11 + 11
    rw [e1]; omega

/-- THE OUTPUT ARRAY after the region is the layer of the arrays the region found. -/
theorem arr (c : Dev nD) : (dat0 V c).arrAt 4 cfg0.N = layer V c :=
  (dat0 V c).arrAt_eq_of_cover 4 (layer V c) (fun t _ => flushed_eq V c t) (cover)

/-- The same, given what the four input buffers hold. -/
theorem arr_of (c : Dev nD) (X : S50000x4.Idx → EReal) (w : S4x11.Idx → EReal) (b : S1x11.Idx → EReal)
    (d : S50000x1.Idx → EReal) (hX : (V c main_v41 : S50000x4.Idx → EReal) = X) (hw : (V c main_arg2 : S4x11.Idx → EReal) = w)
    (hb : (V c main_v45 : S1x11.Idx → EReal) = b) (hd : (V c main_v44 : S50000x1.Idx → EReal) = d) :
    (dat0 V c).arrAt 4 cfg0.N = scaledDenseRelu X w b d := by
  subst hX hw hb hd
  exact arr V c

end Cert.KernelIdeal.Region0

end
-- ==== Proof.Region1Value.lean ====
/-
  REGION 1 OF THE KERNEL: ITS OUTPUT ARRAY IS THE RECTIFIED DEGREE-SCALED DENSE LAYER OF ITS INPUT ARRAYS.

  The region tiles the 50000 rows in 25 blocks of 2000.  At grid point t it reads rows 2000·t … 2000·t + 1999 of the
  aggregate [50000, 11] and of the scale column [50000, 1], the whole weight matrix [11, 512] and the whole bias row
  [1, 512], and writes rows 2000·t … 2000·t + 1999 of the output [50000, 512]:

      out (r, c) = max ((Σ_k agg (r, k) · W (k, c)) · scale (r, 0) + bias (0, c)) 0.

  A row of the layer depends on that row of the aggregate and of the scale column only, so what point t writes back is
  block t of the layer of the WHOLE arrays; the 25 blocks cover the output (row r lies in block r / 2000); hence the
  output array after the region is the layer of the arrays the region found — whatever those contents are.
-/
import proofs.«124514_j69140383531493_1_alg».proof.Proof.Gen.KernelIdeal.Frame
import proofs.«124514_j69140383531493_1_alg».proof.Proof.LibScaledDense
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Lib.ScaledDense

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds: aggregate, weights, bias row, scale column. -/
def layer (c : Dev nD) : S50000x512.Idx → EReal :=
  scaledDenseRelu (V c main_v84 : S50000x11.Idx → EReal) (V c main_arg4 : S11x512.Idx → EReal)
    (V c main_v88 : S1x512.Idx → EReal) (V c main_v87 : S50000x1.Idx → EReal)

/-- The body's stored value, read at an index, is the layer of the blocks it loaded. -/
theorem pay_apply (x0 : Vec Ideal S2000x11 .f32) (x1 : Vec Ideal S11x512 .f32) (x3 : Vec Ideal S2000x1 .f32)
    (x2 : Vec Ideal S1x512 .f32) (j : S2000x512.Idx) :
    k1_pay1 x0 x1 x3 x2 j = scaledDenseRelu x0 x1 x2 x3 j := by
  unfold k1_pay1
  exact kernel_scaledDenseRelu_apply dot_S2000x11_S11x512_S2000x512_1_0_0_1_n_n rfl rfl rfl rfl rfl rfl x0 x1 x2 x3 _ _ _ _ _ j

/-- The printed index maps over the grid: the row-tiled windows are at block (t, 0), the whole ones at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The aggregate's block at point t is rows 2000·t … of the aggregate. -/
theorem agg_block (c : Dev nD) (t : Fin cfg1.N) (y : S2000x11.Idx) (z : S50000x11.Idx)
    (h0 : (z 0).val = t.val * 2000 + (y 0).val) (h1 : (z 1).val = (y 1).val) :
    (iblk1 V c 0 t : S2000x11.Idx → EReal) y = (V c main_v84 : S50000x11.Idx → EReal) z := by
  obtain ⟨e0, e1, -⟩ := idx_facts t
  unfold iblk1
  rw [View.read_apply]
  show (V c main_v84 : S50000x11.Idx → EReal) _ = (V c main_v84 : S50000x11.Idx → EReal) _
  refine congrArg _ (funext fun a => Fin.ext ?_)
  match a with
  | ⟨0, _⟩ => show win1_0.index t (0 : Fin 2) * 2000 + 1 * (y 0).val = (z 0).val; rw [e0, h0]; omega
  | ⟨1, _⟩ => show win1_0.index t (1 : Fin 2) * 11 + 1 * (y 1).val = (z 1).val; rw [e1, h1]; omega

/-- The scale column's block at point t is rows 2000·t … of the scale column. -/
theorem scale_block (c : Dev nD) (t : Fin cfg1.N) (y : S2000x1.Idx) (z : S50000x1.Idx)
    (h0 : (z 0).val = t.val * 2000 + (y 0).val) :
    (iblk1 V c 3 t : S2000x1.Idx → EReal) y = (V c main_v87 : S50000x1.Idx → EReal) z := by
  obtain ⟨-, -, -, -, -, -, e0, e1, -⟩ := idx_facts t
  have hy1 : (y 1).val = 0 := by have h : (y 1).val < 1 := (y 1).isLt; omega
  have hz1 : (z 1).val = 0 := by have h : (z 1).val < 1 := (z 1).isLt; omega
  unfold iblk1
  rw [View.read_apply]
  show (V c main_v87 : S50000x1.Idx → EReal) _ = (V c main_v87 : S50000x1.Idx → EReal) _
  refine congrArg _ (funext fun a => Fin.ext ?_)
  match a with
  | ⟨0, _⟩ => show win1_3.index t (0 : Fin 2) * 2000 + 1 * (y 0).val = (z 0).val; rw [e0, h0]; omega
  | ⟨1, _⟩ => show win1_3.index t (1 : Fin 2) * 1 + 1 * (y 1).val = (z 1).val; rw [e1, hy1, hz1]

/-- The weights' block at any point is the whole weight matrix. -/
theorem weights_block (c : Dev nD) (t : Fin cfg1.N) :
    (iblk1 V c 1 t : S11x512.Idx → EReal) = (V c main_arg4 : S11x512.Idx → EReal) := by
  obtain ⟨-, -, e0, e1, -⟩ := idx_facts t
  funext y
  unfold iblk1
  rw [View.read_apply]
  show (V c main_arg4 : S11x512.Idx → EReal) _ = (V c main_arg4 : S11x512.Idx → EReal) _
  refine congrArg _ (funext fun a => Fin.ext ?_)
  match a with
  | ⟨0, _⟩ => show win1_1.index t (0 : Fin 2) * 11 + 1 * (y 0).val = (y 0).val; rw [e0]; omega
  | ⟨1, _⟩ => show win1_1.index t (1 : Fin 2) * 512 + 1 * (y 1).val = (y 1).val; rw [e1]; omega

/-- The bias row's block at any point is the whole bias row. -/
theorem bias_block (c : Dev nD) (t : Fin cfg1.N) :
    (iblk1 V c 2 t : S1x512.Idx → EReal) = (V c main_v88 : S1x512.Idx → EReal) := by
  obtain ⟨-, -, -, -, e0, e1, -⟩ := idx_facts t
  funext y
  unfold iblk1
  rw [View.read_apply]
  show (V c main_v88 : S1x512.Idx → EReal) _ = (V c main_v88 : S1x512.Idx → EReal) _
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 512 + 1 * (y 1).val = (y 1).val; rw [e1]; omega

/-- WHAT POINT t WRITES BACK is block t of the layer of the whole arrays. -/
theorem flushed_eq (c : Dev nD) (t : Fin cfg1.N) :
    (dat1 V c).flushed 4 t = ((cfg1.win 4).blk t).view.read (Elt Ideal) (layer V c) := by
  obtain ⟨-, -, -, -, -, -, -, -, e0, e1⟩ := idx_facts t
  show (cfg1.win 4).cut (grid1.coords t) ((dat1 V c).after 4 t) = _
  rw [after1_4]
  unfold out1_4
  rw [View.canon_unit_zero hz]
  simp only [View.ld_unit_zero (S := S2000x11) hz, View.ld_unit_zero (S := S11x512) hz, View.ld_unit_zero (S := S1x512) hz,
    View.ld_unit_zero (S := S2000x1) hz]
  funext j
  show k1_pay1 (iblk1 V c 0 t) (iblk1 V c 1 t) (iblk1 V c 3 t) (iblk1 V c 2 t) j
      = layer V c (((cfg1.win 4).blk t).view.emb j)
  refine (pay_apply _ _ _ _ j).trans ?_
  unfold layer
  refine scaledDenseRelu_block _ _ _ _ _ _ _ _ (t.val * 2000) _ j ?_ ?_ (fun y z h0 h1 => agg_block V c t y z h0 h1)
    (fun y z h0 => scale_block V c t y z h0) (weights_block V c t) (bias_block V c t)
  · show win1_4.index t (0 : Fin 2) * 2000 + 1 * (j 0).val = t.val * 2000 + (j 0).val; rw [e0]; omega
  · show win1_4.index t (1 : Fin 2) * 512 + 1 * (j 1).val = (j 1).val; rw [e1]; omega

/-- An index of the output is in point t's block iff each coordinate is in the block's range on its axis. -/
theorem mem_blk (t : Fin cfg1.N) (i : S50000x512.Idx) :
    i ∈ ((cfg1.win 4).blk t).view.set ↔ ∀ a : Fin 2, win1_4.index t a * S2000x512.size a ≤ (i a).val
      ∧ (i a).val < win1_4.index t a * S2000x512.size a + S2000x512.size a := by
  show i ∈ ((View.whole main_v89).slice (win1_4.rect t)).set ↔ _
  rw [View.set_slice_whole, Rect.mem_set_unit]
  exact Iff.rfl

/-- Every index of the output is in some point's block: row r in block r / 2000. -/
theorem cover (i : S50000x512.Idx) :
    ∃ t : Fin cfg1.N, (cfg1.win 4).flush t = true ∧ i ∈ ((cfg1.win 4).blk t).view.set := by
  have hi0 : (i 0).val < 50000 := (i 0).isLt
  have hi1 : (i 1).val < 512 := (i 1).isLt
  have hN : (i 0).val / 2000 < cfg1.N := by rw [show cfg1.N = 25 from N_1]; omega
  obtain ⟨-, -, -, -, -, -, -, -, e0, e1⟩ := idx_facts ⟨(i 0).val / 2000, hN⟩
  refine ⟨⟨(i 0).val / 2000, hN⟩, flush1_4 _, ?_⟩
  rw [mem_blk]
  intro a
  match a with
  | ⟨0, _⟩ =>
    show win1_4.index ⟨(i 0).val / 2000, hN⟩ (0 : Fin 2) * 2000 ≤ (i 0).val
      ∧ (i 0).val < win1_4.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, hN⟩ (1 : Fin 2) * 512 ≤ (i 1).val
      ∧ (i 1).val < win1_4.index ⟨(i 0).val / 2000, hN⟩ (1 : Fin 2) * 512 + 512
    rw [e1]; omega

/-- THE OUTPUT ARRAY after the region is the layer of the arrays the region found. -/
theorem arr (c : Dev nD) : (dat1 V c).arrAt 4 cfg1.N = layer V c :=
  (dat1 V c).arrAt_eq_of_cover 4 (layer V c) (fun t _ => flushed_eq V c t) (cover)

/-- The same, given what the four input buffers hold. -/
theorem arr_of (c : Dev nD) (X : S50000x11.Idx → EReal) (w : S11x512.Idx → EReal) (b : S1x512.Idx → EReal)
    (d : S50000x1.Idx → EReal) (hX : (V c main_v84 : S50000x11.Idx → EReal) = X) (hw : (V c main_arg4 : S11x512.Idx → EReal) = w)
    (hb : (V c main_v88 : S1x512.Idx → EReal) = b) (hd : (V c main_v87 : S50000x1.Idx → EReal) = d) :
    (dat1 V c).arrAt 4 cfg1.N = scaledDenseRelu X w b d := by
  subst hX hw hb hd
  exact arr V c

end Cert.KernelIdeal.Region1

end
-- ==== Proof.Region2Value.lean ====
/-
  REGION 2 OF THE KERNEL: ITS OUTPUT ARRAY IS THE DEGREE-SCALED DENSE LAYER OF ITS INPUT ARRAYS.

  The region tiles the 50000 rows in 25 blocks of 2000.  At grid point t it reads rows 2000·t … 2000·t + 1999 of the
  aggregate [50000, 512] and of the scale column [50000, 1], the whole weight matrix [512, 1024] and the whole bias row
  [1, 1024], and writes rows 2000·t … 2000·t + 1999 of the output [50000, 1024]:

      out (r, c) = (Σ_k agg (r, k) · W (k, c)) · scale (r, 0) + bias (0, c).

  A row of the layer depends on that row of the aggregate and of the scale column only, so what point t writes back is
  block t of the layer of the WHOLE arrays; the 25 blocks cover the output (row r lies in block r / 2000); hence the
  output array after the region is the layer of the arrays the region found — whatever those contents are.
-/
import proofs.«124514_j69140383531493_1_alg».proof.Proof.Gen.KernelIdeal.Frame
import proofs.«124514_j69140383531493_1_alg».proof.Proof.LibScaledDense
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Lib.ScaledDense

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds: aggregate, weights, bias row, scale column. -/
def layer (c : Dev nD) : S50000x1024.Idx → EReal :=
  scaledDense (V c main_v126 : S50000x512.Idx → EReal) (V c main_arg6 : S512x1024.Idx → EReal)
    (V c main_v130 : S1x1024.Idx → EReal) (V c main_v129 : S50000x1.Idx → EReal)

/-- The body's stored value, read at an index, is the layer of the blocks it loaded. -/
theorem pay_apply (x0 : Vec Ideal S2000x512 .f32) (x1 : Vec Ideal S512x1024 .f32) (x3 : Vec Ideal S2000x1 .f32)
    (x2 : Vec Ideal S1x1024 .f32) (j : S2000x1024.Idx) :
    k2_pay1 x0 x1 x3 x2 j = scaledDense x0 x1 x2 x3 j := by
  unfold k2_pay1
  exact kernel_scaledDense_apply dot_S2000x512_S512x1024_S2000x1024_1_0_0_1_n_n rfl rfl rfl rfl rfl rfl x0 x1 x2 x3 _ _ _ _ _ j

/-- The printed index maps over the grid: the row-tiled windows are at block (t, 0), the whole ones at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The aggregate's block at point t is rows 2000·t … of the aggregate. -/
theorem agg_block (c : Dev nD) (t : Fin cfg2.N) (y : S2000x512.Idx) (z : S50000x512.Idx)
    (h0 : (z 0).val = t.val * 2000 + (y 0).val) (h1 : (z 1).val = (y 1).val) :
    (iblk2 V c 0 t : S2000x512.Idx → EReal) y = (V c main_v126 : S50000x512.Idx → EReal) z := by
  obtain ⟨e0, e1, -⟩ := idx_facts t
  unfold iblk2
  rw [View.read_apply]
  show (V c main_v126 : S50000x512.Idx → EReal) _ = (V c main_v126 : S50000x512.Idx → EReal) _
  refine congrArg _ (funext fun a => Fin.ext ?_)
  match a with
  | ⟨0, _⟩ => show win2_0.index t (0 : Fin 2) * 2000 + 1 * (y 0).val = (z 0).val; rw [e0, h0]; omega
  | ⟨1, _⟩ => show win2_0.index t (1 : Fin 2) * 512 + 1 * (y 1).val = (z 1).val; rw [e1, h1]; omega

/-- The scale column's block at point t is rows 2000·t … of the scale column. -/
theorem scale_block (c : Dev nD) (t : Fin cfg2.N) (y : S2000x1.Idx) (z : S50000x1.Idx)
    (h0 : (z 0).val = t.val * 2000 + (y 0).val) :
    (iblk2 V c 3 t : S2000x1.Idx → EReal) y = (V c main_v129 : S50000x1.Idx → EReal) z := by
  obtain ⟨-, -, -, -, -, -, e0, e1, -⟩ := idx_facts t
  have hy1 : (y 1).val = 0 := by have h : (y 1).val < 1 := (y 1).isLt; omega
  have hz1 : (z 1).val = 0 := by have h : (z 1).val < 1 := (z 1).isLt; omega
  unfold iblk2
  rw [View.read_apply]
  show (V c main_v129 : S50000x1.Idx → EReal) _ = (V c main_v129 : S50000x1.Idx → EReal) _
  refine congrArg _ (funext fun a => Fin.ext ?_)
  match a with
  | ⟨0, _⟩ => show win2_3.index t (0 : Fin 2) * 2000 + 1 * (y 0).val = (z 0).val; rw [e0, h0]; omega
  | ⟨1, _⟩ => show win2_3.index t (1 : Fin 2) * 1 + 1 * (y 1).val = (z 1).val; rw [e1, hy1, hz1]

/-- The weights' block at any point is the whole weight matrix. -/
theorem weights_block (c : Dev nD) (t : Fin cfg2.N) :
    (iblk2 V c 1 t : S512x1024.Idx → EReal) = (V c main_arg6 : S512x1024.Idx → EReal) := by
  obtain ⟨-, -, e0, e1, -⟩ := idx_facts t
  funext y
  unfold iblk2
  rw [View.read_apply]
  show (V c main_arg6 : S512x1024.Idx → EReal) _ = (V c main_arg6 : S512x1024.Idx → EReal) _
  refine congrArg _ (funext fun a => Fin.ext ?_)
  match a with
  | ⟨0, _⟩ => show win2_1.index t (0 : Fin 2) * 512 + 1 * (y 0).val = (y 0).val; rw [e0]; omega
  | ⟨1, _⟩ => show win2_1.index t (1 : Fin 2) * 1024 + 1 * (y 1).val = (y 1).val; rw [e1]; omega

/-- The bias row's block at any point is the whole bias row. -/
theorem bias_block (c : Dev nD) (t : Fin cfg2.N) :
    (iblk2 V c 2 t : S1x1024.Idx → EReal) = (V c main_v130 : S1x1024.Idx → EReal) := by
  obtain ⟨-, -, -, -, e0, e1, -⟩ := idx_facts t
  funext y
  unfold iblk2
  rw [View.read_apply]
  show (V c main_v130 : S1x1024.Idx → EReal) _ = (V c main_v130 : S1x1024.Idx → EReal) _
  refine congrArg _ (funext fun a => Fin.ext ?_)
  match a with
  | ⟨0, _⟩ => show win2_2.index t (0 : Fin 2) * 1 + 1 * (y 0).val = (y 0).val; rw [e0]; omega
  | ⟨1, _⟩ => show win2_2.index t (1 : Fin 2) * 1024 + 1 * (y 1).val = (y 1).val; rw [e1]; omega

/-- WHAT POINT t WRITES BACK is block t of the layer of the whole arrays. -/
theorem flushed_eq (c : Dev nD) (t : Fin cfg2.N) :
    (dat2 V c).flushed 4 t = ((cfg2.win 4).blk t).view.read (Elt Ideal) (layer V c) := by
  obtain ⟨-, -, -, -, -, -, -, -, e0, e1⟩ := idx_facts t
  show (cfg2.win 4).cut (grid2.coords t) ((dat2 V c).after 4 t) = _
  rw [after2_4]
  unfold out2_4
  rw [View.canon_unit_zero hz]
  simp only [View.ld_unit_zero (S := S2000x512) hz, View.ld_unit_zero (S := S512x1024) hz, View.ld_unit_zero (S := S1x1024) hz,
    View.ld_unit_zero (S := S2000x1) hz]
  funext j
  show k2_pay1 (iblk2 V c 0 t) (iblk2 V c 1 t) (iblk2 V c 3 t) (iblk2 V c 2 t) j
      = layer V c (((cfg2.win 4).blk t).view.emb j)
  refine (pay_apply _ _ _ _ j).trans ?_
  unfold layer
  refine scaledDense_block _ _ _ _ _ _ _ _ (t.val * 2000) _ j ?_ ?_ (fun y z h0 h1 => agg_block V c t y z h0 h1)
    (fun y z h0 => scale_block V c t y z h0) (weights_block V c t) (bias_block V c t)
  · show win2_4.index t (0 : Fin 2) * 2000 + 1 * (j 0).val = t.val * 2000 + (j 0).val; rw [e0]; omega
  · show win2_4.index t (1 : Fin 2) * 1024 + 1 * (j 1).val = (j 1).val; rw [e1]; omega

/-- An index of the output is in point t's block iff each coordinate is in the block's range on its axis. -/
theorem mem_blk (t : Fin cfg2.N) (i : S50000x1024.Idx) :
    i ∈ ((cfg2.win 4).blk t).view.set ↔ ∀ a : Fin 2, win2_4.index t a * S2000x1024.size a ≤ (i a).val
      ∧ (i a).val < win2_4.index t a * S2000x1024.size a + S2000x1024.size a := by
  show i ∈ ((View.whole main_v131).slice (win2_4.rect t)).set ↔ _
  rw [View.set_slice_whole, Rect.mem_set_unit]
  exact Iff.rfl

/-- Every index of the output is in some point's block: row r in block r / 2000. -/
theorem cover (i : S50000x1024.Idx) :
    ∃ t : Fin cfg2.N, (cfg2.win 4).flush t = true ∧ i ∈ ((cfg2.win 4).blk t).view.set := by
  have hi0 : (i 0).val < 50000 := (i 0).isLt
  have hi1 : (i 1).val < 1024 := (i 1).isLt
  have hN : (i 0).val / 2000 < cfg2.N := by rw [show cfg2.N = 25 from N_2]; omega
  obtain ⟨-, -, -, -, -, -, -, -, e0, e1⟩ := idx_facts ⟨(i 0).val / 2000, hN⟩
  refine ⟨⟨(i 0).val / 2000, hN⟩, flush2_4 _, ?_⟩
  rw [mem_blk]
  intro a
  match a with
  | ⟨0, _⟩ =>
    show win2_4.index ⟨(i 0).val / 2000, hN⟩ (0 : Fin 2) * 2000 ≤ (i 0).val
      ∧ (i 0).val < win2_4.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win2_4.index ⟨(i 0).val / 2000, hN⟩ (1 : Fin 2) * 1024 ≤ (i 1).val
      ∧ (i 1).val < win2_4.index ⟨(i 0).val / 2000, hN⟩ (1 : Fin 2) * 1024 + 1024
    rw [e1]; omega

/-- THE OUTPUT ARRAY after the region is the layer of the arrays the region found. -/
theorem arr (c : Dev nD) : (dat2 V c).arrAt 4 cfg2.N = layer V c :=
  (dat2 V c).arrAt_eq_of_cover 4 (layer V c) (fun t _ => flushed_eq V c t) (cover)

/-- The same, given what the four input buffers hold. -/
theorem arr_of (c : Dev nD) (X : S50000x512.Idx → EReal) (w : S512x1024.Idx → EReal) (b : S1x1024.Idx → EReal)
    (d : S50000x1.Idx → EReal) (hX : (V c main_v126 : S50000x512.Idx → EReal) = X) (hw : (V c main_arg6 : S512x1024.Idx → EReal) = w)
    (hb : (V c main_v130 : S1x1024.Idx → EReal) = b) (hd : (V c main_v129 : S50000x1.Idx → EReal) = d) :
    (dat2 V c).arrAt 4 cfg2.N = scaledDense X w b d := by
  subst hX hw hb hd
  exact arr V c

end Cert.KernelIdeal.Region2

end
-- ==== Proof.RefLayers.lean ====
/-
  THE REFERENCE'S THREE GRAPH-CONVOLUTION LAYERS AS THE DEGREE-SCALED DENSE LAYER.

  After aggregating, each layer of the reference multiplies the aggregate by the weights (a dot_general), scales row r by
  the in-degree factor of node r (a [N, 1] column broadcast over the columns), adds the bias (the vector laid as a row and
  broadcast down the rows), and — in the first two layers — takes the maximum with zero.  Index by index that is

      (Σ_k agg (r, k) · W (k, c)) · scale (r, 0) + bias (c),      and its maximum with 0,

  the same function the kernel's regions compute block by block, with the bias vector read as the row [1, B].
  The aggregate and the scale column stay the reference's own stages, unopened.
-/
import proofs.«124514_j69140383531493_1_alg».proof.Proof.Gen.ReferenceIdeal.Read
import proofs.«124514_j69140383531493_1_alg».proof.Proof.LibScaledDense

noncomputable section

open Idealize.ShloMosaic Idealize.ShloMosaic.TcCoe

namespace Cert.ReferenceIdeal.Layers

open Cert.ReferenceIdeal Cert.ReferenceIdeal.Read Cert.Lib.ScaledDense

/-- Layer 1 (4 → 11 features, rectified). -/
theorem layer1 (x0 : (⟨S50000x4, .f32⟩ : BufTy).Contents (Elt Ideal)) (x2 : (⟨S4x11, .f32⟩ : BufTy).Contents (Elt Ideal)) (x3 : (⟨S11, .f32⟩ : BufTy).Contents (Elt Ideal)) (x16 x17 : (⟨S150000, .i32⟩ : BufTy).Contents (Elt Ideal))
    (hrow : S11.ShapeCasts S1x11) :
    val_main_v51 (F := Ideal) x0 x2 x3 x16 x17
      = scaledDenseRelu (val_main_v41 (F := Ideal) x0 x16 x17) x2 (shapeCast S1x11 x3 hrow) (val_main_v45 (F := Ideal) x17) := by
  unfold val_main_v51 val_main_v50 val_main_v47 val_main_v42 val_main_v46 val_main_v49 val_main_v48 val_main_call0_v0
    val_main_call0_cst
  exact host_scaledDenseRelu dot_S50000x4_S4x11_S50000x11_1_0_0_1_n_n rfl rfl rfl rfl rfl rfl _ x2 x3 _ _ _ _ _ hrow

/-- Layer 2 (11 → 512 features, rectified). -/
theorem layer2 (x0 : (⟨S50000x4, .f32⟩ : BufTy).Contents (Elt Ideal)) (x1 : (⟨S150000x11, .f32⟩ : BufTy).Contents (Elt Ideal)) (x2 : (⟨S4x11, .f32⟩ : BufTy).Contents (Elt Ideal)) (x3 : (⟨S11, .f32⟩ : BufTy).Contents (Elt Ideal))
    (x4 : (⟨S11x512, .f32⟩ : BufTy).Contents (Elt Ideal)) (x5 : (⟨S512, .f32⟩ : BufTy).Contents (Elt Ideal)) (x16 x17 : (⟨S150000, .i32⟩ : BufTy).Contents (Elt Ideal))
    (hrow : S512.ShapeCasts S1x512) :
    val_main_v99 (F := Ideal) x0 x1 x2 x3 x4 x5 x16 x17
      = scaledDenseRelu (val_main_v89 (F := Ideal) x0 x1 x2 x3 x16 x17) x4 (shapeCast S1x512 x5 hrow)
          (val_main_v93 (F := Ideal) x17) := by
  unfold val_main_v99 val_main_v98 val_main_v95 val_main_v90 val_main_v94 val_main_v97 val_main_v96 val_main_call1_v0
    val_main_call1_cst
  exact host_scaledDenseRelu dot_S50000x11_S11x512_S50000x512_1_0_0_1_n_n rfl rfl rfl rfl rfl rfl _ x4 x5 _ _ _ _ _ hrow

/-- Layer 3 (512 → 1024 features, not rectified). -/
theorem layer3 (x0 : (⟨S50000x4, .f32⟩ : BufTy).Contents (Elt Ideal)) (x1 : (⟨S150000x11, .f32⟩ : BufTy).Contents (Elt Ideal)) (x2 : (⟨S4x11, .f32⟩ : BufTy).Contents (Elt Ideal)) (x3 : (⟨S11, .f32⟩ : BufTy).Contents (Elt Ideal))
    (x4 : (⟨S11x512, .f32⟩ : BufTy).Contents (Elt Ideal)) (x5 : (⟨S512, .f32⟩ : BufTy).Contents (Elt Ideal)) (x6 : (⟨S512x1024, .f32⟩ : BufTy).Contents (Elt Ideal)) (x7 : (⟨S1024, .f32⟩ : BufTy).Contents (Elt Ideal)) (x16 x17 : (⟨S150000, .i32⟩ : BufTy).Contents (Elt Ideal))
    (hrow : S1024.ShapeCasts S1x1024) :
    val_main_v145 (F := Ideal) x0 x1 x2 x3 x4 x5 x6 x7 x16 x17
      = scaledDense (val_main_v136 (F := Ideal) x0 x1 x2 x3 x4 x5 x16 x17) x6 (shapeCast S1x1024 x7 hrow)
          (val_main_v140 (F := Ideal) x17) := by
  unfold val_main_v145 val_main_v142 val_main_v137 val_main_v141 val_main_v144 val_main_v143
  exact host_scaledDense dot_S50000x512_S512x1024_S50000x1024_1_0_0_1_n_n rfl rfl rfl rfl rfl rfl _ x6 x7 _ _ _ _ hrow

end Cert.ReferenceIdeal.Layers

end
-- ==== Proof.HostKeeps.lean ====
/-
  WHAT THE KERNEL PROGRAM'S HOST STRETCHES LEAVE UNTOUCHED.

  Each stretch of host operations between the regions writes only the buffers of its own results; any other buffer —
  an argument, or a result of an earlier stretch — holds after the stretch what it held before.  The buffers each of the
  first three stretches writes are listed, and a buffer not in the list is kept.
-/
import proofs.«124514_j69140383531493_1_alg».proof.Proof.Gen.KernelIdeal.Launch
import Idealize.ShloMosaic.Lib.StableHlo.Run

set_option maxRecDepth 16384

noncomputable section

open Idealize.ShloMosaic Idealize.ShloMosaic.TcCoe Idealize.SL.Sem

namespace Cert.KernelIdeal.Keeps

open Cert.KernelIdeal Cert.KernelIdeal.Gen

variable {F : FTy → Type} [FloatOps F]

/-- The buffers the stretch before region 0 writes. -/
abbrev written0 : List (Ref sig .tc) := [main_v0, main_v1, main_v2, main_cst, main_v3, main_v4, main_cst_0, main_v5, main_c, main_v6, main_v7, main_c_1, main_v8, main_v9, main_v10, main_v11, main_cst_2, main_v12, main_v13, main_cst_3, main_v14, main_v15, main_cst_4, main_v16, main_c_5, main_v17, main_v18, main_c_6, main_v19, main_v20, main_v21, main_v22, main_cst_7, main_v23, main_v24, main_cst_8, main_v25, main_v26, main_v27, main_cst_9, main_v28, main_v29, main_v30, main_v31, main_c_10, main_v32, main_v33, main_c_11, main_v34, main_v35, main_v36, main_v37, main_v38, main_cst_12, main_v39, main_v40, main_v41, main_v42, main_cst_13, main_v43, main_v44, main_v45]
theorem writes0 : (hostOps0 : List (HloOp τ sig (Elt F))).Forall fun op => op.writes ⊆ (written0.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
/-- A buffer the stretch before region 0 does not write holds what it held. -/
theorem keep0 (W : Valuation τ sig (Elt F)) (r : Ref sig .tc) (h : r ∉ written0) :
    StableHlo.after hostOps0 W (Proc.devRef .tc r) = W (Proc.devRef .tc r) :=
  StableHlo.after_of_writes_sub hostOps0 _ writes0 h

/-- The buffers the stretch before region 1 writes. -/
abbrev written1 : List (Ref sig .tc) := [main_cst_14, main_v47, main_c_15, main_v48, main_v49, main_c_16, main_v50, main_v51, main_v52, main_v53, main_cst_17, main_v54, main_v55, main_cst_18, main_v56, main_v57, main_cst_19, main_v58, main_c_20, main_v59, main_v60, main_c_21, main_v61, main_v62, main_v63, main_v64, main_cst_22, main_v65, main_v66, main_cst_23, main_v67, main_v68, main_v69, main_cst_24, main_v70, main_v71, main_v72, main_v73, main_c_25, main_v74, main_v75, main_c_26, main_v76, main_v77, main_v78, main_v79, main_v80, main_v81, main_cst_27, main_v82, main_v83, main_v84, main_v85, main_cst_28, main_v86, main_v87, main_v88]
theorem writes1 : (hostOps1 : List (HloOp τ sig (Elt F))).Forall fun op => op.writes ⊆ (written1.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
/-- A buffer the stretch before region 1 does not write holds what it held. -/
theorem keep1 (W : Valuation τ sig (Elt F)) (r : Ref sig .tc) (h : r ∉ written1) :
    StableHlo.after hostOps1 W (Proc.devRef .tc r) = W (Proc.devRef .tc r) :=
  StableHlo.after_of_writes_sub hostOps1 _ writes1 h

/-- The buffers the stretch before region 2 writes. -/
abbrev written2 : List (Ref sig .tc) := [main_cst_29, main_v90, main_c_30, main_v91, main_v92, main_c_31, main_v93, main_v94, main_v95, main_v96, main_cst_32, main_v97, main_v98, main_cst_33, main_v99, main_v100, main_cst_34, main_v101, main_c_35, main_v102, main_v103, main_c_36, main_v104, main_v105, main_v106, main_v107, main_cst_37, main_v108, main_v109, main_cst_38, main_v110, main_v111, main_v112, main_cst_39, main_v113, main_v114, main_v115, main_v116, main_c_40, main_v117, main_v118, main_c_41, main_v119, main_v120, main_v121, main_v122, main_v123, main_cst_42, main_v124, main_v125, main_v126, main_v127, main_cst_43, main_v128, main_v129, main_v130]
theorem writes2 : (hostOps2 : List (HloOp τ sig (Elt F))).Forall fun op => op.writes ⊆ (written2.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
/-- A buffer the stretch before region 2 does not write holds what it held. -/
theorem keep2 (W : Valuation τ sig (Elt F)) (r : Ref sig .tc) (h : r ∉ written2) :
    StableHlo.after hostOps2 W (Proc.devRef .tc r) = W (Proc.devRef .tc r) :=
  StableHlo.after_of_writes_sub hostOps2 _ writes2 h

end Cert.KernelIdeal.Keeps

end
-- ==== Proof.Stretch0.lean ====
/-
  THE HOST OPERATIONS BEFORE THE FIRST REGION, READ AGAINST THE REFERENCE'S STAGES.

  Both programs begin with the same operations: the self-loop edges appended to the source and destination lists and
  zero rows to the edge features, the out- and in-degrees by scatter-add (at least 1), the node features scaled by
  out-degree^(-1/2), gathered along the edges and summed into their destinations.  From any buffer contents, what the
  kernel program's first stretch leaves in the buffers the first region and the later stretches read is therefore the
  reference's corresponding stage of the same arguments: the edge lists with loops, the padded edge features, the first
  aggregate, the in-degree scale column; and the bias vector re-cast as a row.
-/
import proofs.«124514_j69140383531493_1_alg».proof.Proof.Gen.KernelIdeal.Launch
import proofs.«124514_j69140383531493_1_alg».proof.Proof.Gen.ReferenceIdeal.Read
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Stretch0

open Cert.KernelIdeal Cert.KernelIdeal.Gen

variable (W : Valuation τ sig (Elt Ideal))

/-- The source list with self loops. -/
theorem srcL : after hostOps0 W (Proc.devRef .tc main_v1) = Cert.ReferenceIdeal.Read.val_main_v1 (F := Ideal) (W (Proc.devRef .tc main_arg16)) := by
  simp only [hostOps0]; after_results_simp; rfl
/-- The destination list with self loops. -/
theorem dstL : after hostOps0 W (Proc.devRef .tc main_v2) = Cert.ReferenceIdeal.Read.val_main_v2 (F := Ideal) (W (Proc.devRef .tc main_arg17)) := by
  simp only [hostOps0]; after_results_simp; rfl
/-- The edge features padded with zero rows for the self loops. -/
theorem edgeF : after hostOps0 W (Proc.devRef .tc main_v4) = Cert.ReferenceIdeal.Read.val_main_v4 (F := Ideal) (W (Proc.devRef .tc main_arg1)) := by
  simp only [hostOps0]; after_results_simp; rfl
/-- The first aggregate. -/
theorem agg : after hostOps0 W (Proc.devRef .tc main_v41)
    = Cert.ReferenceIdeal.Read.val_main_v41 (F := Ideal) (W (Proc.devRef .tc main_arg0)) (W (Proc.devRef .tc main_arg16)) (W (Proc.devRef .tc main_arg17)) := by
  simp only [hostOps0]; after_results_simp; rfl
/-- The in-degree scale column. -/
theorem scale : after hostOps0 W (Proc.devRef .tc main_v44) = Cert.ReferenceIdeal.Read.val_main_v45 (F := Ideal) (W (Proc.devRef .tc main_arg17)) := by
  simp only [hostOps0]; after_results_simp; rfl
/-- The first bias vector as a row. -/
theorem biasRow : after hostOps0 W (Proc.devRef .tc main_v45) = shapeCast S1x11 (W (Proc.devRef .tc main_arg3)) shapeCasts_S11_S1x11 := by
  simp only [hostOps0]; after_results_simp; rfl

end Cert.KernelIdeal.Stretch0

end
-- ==== Proof.Stretch1.lean ====
/-
  THE HOST OPERATIONS BETWEEN THE FIRST AND THE SECOND REGION, READ AGAINST THE REFERENCE'S STAGES.

  From buffer contents in which the first region's output is the reference's first layer, and the edge lists and padded
  edge features are the reference's, the stretch — degrees again, the layer scaled by out-degree^(-1/2), gathered along
  the edges, multiplied by the edge features, summed into the destinations — leaves the reference's second aggregate
  and in-degree scale column; and the second bias vector re-cast as a row.
-/
import proofs.«124514_j69140383531493_1_alg».proof.Proof.Gen.KernelIdeal.Launch
import proofs.«124514_j69140383531493_1_alg».proof.Proof.Gen.ReferenceIdeal.Read
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Stretch1

open Cert.KernelIdeal Cert.KernelIdeal.Gen

variable (W : Valuation τ sig (Elt Ideal))

/-- The second aggregate. -/
theorem agg (x0 : (⟨Cert.ReferenceIdeal.S50000x4, .f32⟩ : BufTy).Contents (Elt Ideal)) (x1 : (⟨Cert.ReferenceIdeal.S150000x11, .f32⟩ : BufTy).Contents (Elt Ideal)) (x2 : (⟨Cert.ReferenceIdeal.S4x11, .f32⟩ : BufTy).Contents (Elt Ideal)) (x3 : (⟨Cert.ReferenceIdeal.S11, .f32⟩ : BufTy).Contents (Elt Ideal)) (x16 x17 : (⟨Cert.ReferenceIdeal.S150000, .i32⟩ : BufTy).Contents (Elt Ideal))
    (hh : W (Proc.devRef .tc main_v46) = Cert.ReferenceIdeal.Read.val_main_v51 (F := Ideal) x0 x2 x3 x16 x17)
    (h1 : W (Proc.devRef .tc main_v1) = Cert.ReferenceIdeal.Read.val_main_v1 (F := Ideal) x16)
    (h2 : W (Proc.devRef .tc main_v2) = Cert.ReferenceIdeal.Read.val_main_v2 (F := Ideal) x17)
    (h4 : W (Proc.devRef .tc main_v4) = Cert.ReferenceIdeal.Read.val_main_v4 (F := Ideal) x1) :
    after hostOps1 W (Proc.devRef .tc main_v84) = Cert.ReferenceIdeal.Read.val_main_v89 (F := Ideal) x0 x1 x2 x3 x16 x17 := by
  simp only [hostOps1]; after_results_simp; rw [hh, h1, h2, h4]; rfl
/-- The second in-degree scale column. -/
theorem scale (x17 : (⟨Cert.ReferenceIdeal.S150000, .i32⟩ : BufTy).Contents (Elt Ideal)) (h2 : W (Proc.devRef .tc main_v2) = Cert.ReferenceIdeal.Read.val_main_v2 (F := Ideal) x17) :
    after hostOps1 W (Proc.devRef .tc main_v87) = Cert.ReferenceIdeal.Read.val_main_v93 (F := Ideal) x17 := by
  simp only [hostOps1]; after_results_simp; rw [h2]; rfl
/-- The second bias vector as a row. -/
theorem biasRow : after hostOps1 W (Proc.devRef .tc main_v88) = shapeCast S1x512 (W (Proc.devRef .tc main_arg5)) shapeCasts_S512_S1x512 := by
  simp only [hostOps1]; after_results_simp; rfl

end Cert.KernelIdeal.Stretch1

end
-- ==== Proof.Stretch2.lean ====
/-
  THE HOST OPERATIONS BETWEEN THE SECOND AND THE THIRD REGION, READ AGAINST THE REFERENCE'S STAGES.

  From buffer contents in which the second region's output is the reference's second layer and the edge lists are the
  reference's, the stretch leaves the reference's third aggregate and in-degree scale column; and the third bias vector
  re-cast as a row.
-/
import proofs.«124514_j69140383531493_1_alg».proof.Proof.Gen.KernelIdeal.Launch
import proofs.«124514_j69140383531493_1_alg».proof.Proof.Gen.ReferenceIdeal.Read
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Stretch2

open Cert.KernelIdeal Cert.KernelIdeal.Gen

variable (W : Valuation τ sig (Elt Ideal))

/-- The third aggregate. -/
theorem agg (x0 : (⟨Cert.ReferenceIdeal.S50000x4, .f32⟩ : BufTy).Contents (Elt Ideal)) (x1 : (⟨Cert.ReferenceIdeal.S150000x11, .f32⟩ : BufTy).Contents (Elt Ideal)) (x2 : (⟨Cert.ReferenceIdeal.S4x11, .f32⟩ : BufTy).Contents (Elt Ideal)) (x3 : (⟨Cert.ReferenceIdeal.S11, .f32⟩ : BufTy).Contents (Elt Ideal))
    (x4 : (⟨Cert.ReferenceIdeal.S11x512, .f32⟩ : BufTy).Contents (Elt Ideal)) (x5 : (⟨Cert.ReferenceIdeal.S512, .f32⟩ : BufTy).Contents (Elt Ideal)) (x16 x17 : (⟨Cert.ReferenceIdeal.S150000, .i32⟩ : BufTy).Contents (Elt Ideal))
    (hh : W (Proc.devRef .tc main_v89) = Cert.ReferenceIdeal.Read.val_main_v99 (F := Ideal) x0 x1 x2 x3 x4 x5 x16 x17)
    (h1 : W (Proc.devRef .tc main_v1) = Cert.ReferenceIdeal.Read.val_main_v1 (F := Ideal) x16)
    (h2 : W (Proc.devRef .tc main_v2) = Cert.ReferenceIdeal.Read.val_main_v2 (F := Ideal) x17) :
    after hostOps2 W (Proc.devRef .tc main_v126) = Cert.ReferenceIdeal.Read.val_main_v136 (F := Ideal) x0 x1 x2 x3 x4 x5 x16 x17 := by
  simp only [hostOps2]; after_results_simp; rw [hh, h1, h2]; rfl
/-- The third in-degree scale column. -/
theorem scale (x17 : (⟨Cert.ReferenceIdeal.S150000, .i32⟩ : BufTy).Contents (Elt Ideal)) (h2 : W (Proc.devRef .tc main_v2) = Cert.ReferenceIdeal.Read.val_main_v2 (F := Ideal) x17) :
    after hostOps2 W (Proc.devRef .tc main_v129) = Cert.ReferenceIdeal.Read.val_main_v140 (F := Ideal) x17 := by
  simp only [hostOps2]; after_results_simp; rw [h2]; rfl
/-- The third bias vector as a row. -/
theorem biasRow : after hostOps2 W (Proc.devRef .tc main_v130) = shapeCast S1x1024 (W (Proc.devRef .tc main_arg7)) shapeCasts_S1024_S1x1024 := by
  simp only [hostOps2]; after_results_simp; rfl

end Cert.KernelIdeal.Stretch2

end
-- ==== Proof.Tail.lean ====
/-
  THE HOST OPERATIONS AFTER THE THIRD REGION, READ AGAINST THE REFERENCE'S LAST STAGES.

  Both programs end with the same operations on the third layer's output: the mean over the nodes, the value head and
  the advantage head (a dense layer, the rectifier, a dense layer each), and  value + (advantage − mean advantage).
  From buffer contents in which the third region's output is the reference's third layer and the head weights are the
  arguments, the five stretches of the tail leave the reference's result.
-/
import proofs.«124514_j69140383531493_1_alg».proof.Proof.Gen.KernelIdeal.Launch
import proofs.«124514_j69140383531493_1_alg».proof.Proof.Gen.ReferenceIdeal.Read
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Tail

open Cert.KernelIdeal Cert.KernelIdeal.Gen

variable (W : Valuation τ sig (Elt Ideal))

/-- The result. -/
theorem result (x0 : (⟨Cert.ReferenceIdeal.S50000x4, .f32⟩ : BufTy).Contents (Elt Ideal)) (x1 : (⟨Cert.ReferenceIdeal.S150000x11, .f32⟩ : BufTy).Contents (Elt Ideal)) (x2 : (⟨Cert.ReferenceIdeal.S4x11, .f32⟩ : BufTy).Contents (Elt Ideal)) (x3 : (⟨Cert.ReferenceIdeal.S11, .f32⟩ : BufTy).Contents (Elt Ideal))
    (x4 : (⟨Cert.ReferenceIdeal.S11x512, .f32⟩ : BufTy).Contents (Elt Ideal)) (x5 : (⟨Cert.ReferenceIdeal.S512, .f32⟩ : BufTy).Contents (Elt Ideal)) (x6 : (⟨Cert.ReferenceIdeal.S512x1024, .f32⟩ : BufTy).Contents (Elt Ideal)) (x7 : (⟨Cert.ReferenceIdeal.S1024, .f32⟩ : BufTy).Contents (Elt Ideal))
    (x8 : (⟨Cert.ReferenceIdeal.S1024x2048, .f32⟩ : BufTy).Contents (Elt Ideal)) (x9 : (⟨Cert.ReferenceIdeal.S2048, .f32⟩ : BufTy).Contents (Elt Ideal)) (x10 : (⟨Cert.ReferenceIdeal.S2048x1, .f32⟩ : BufTy).Contents (Elt Ideal)) (x11 : (⟨Cert.ReferenceIdeal.S1, .f32⟩ : BufTy).Contents (Elt Ideal))
    (x12 : (⟨Cert.ReferenceIdeal.S1024x2048, .f32⟩ : BufTy).Contents (Elt Ideal)) (x13 : (⟨Cert.ReferenceIdeal.S2048, .f32⟩ : BufTy).Contents (Elt Ideal)) (x14 : (⟨Cert.ReferenceIdeal.S2048x1000, .f32⟩ : BufTy).Contents (Elt Ideal)) (x15 : (⟨Cert.ReferenceIdeal.S1000, .f32⟩ : BufTy).Contents (Elt Ideal)) (x16 x17 : (⟨Cert.ReferenceIdeal.S150000, .i32⟩ : BufTy).Contents (Elt Ideal))
    (hh : W (Proc.devRef .tc main_v131) = Cert.ReferenceIdeal.Read.val_main_v145 (F := Ideal) x0 x1 x2 x3 x4 x5 x6 x7 x16 x17)
    (h8 : W (Proc.devRef .tc main_arg8) = x8) (h9 : W (Proc.devRef .tc main_arg9) = x9) (h10 : W (Proc.devRef .tc main_arg10) = x10)
    (h11 : W (Proc.devRef .tc main_arg11) = x11) (h12 : W (Proc.devRef .tc main_arg12) = x12) (h13 : W (Proc.devRef .tc main_arg13) = x13)
    (h14 : W (Proc.devRef .tc main_arg14) = x14) (h15 : W (Proc.devRef .tc main_arg15) = x15) :
    after hostOps3_4 (after hostOps3_3 (after hostOps3_2 (after hostOps3_1 (after hostOps3 W)))) (Proc.devRef .tc main_v155)
      = Cert.ReferenceIdeal.Read.val_main_v169 (F := Ideal) x0 x1 x2 x3 x4 x5 x6 x7 x8 x9 x10 x11 x12 x13 x14 x15 x16 x17 := by
  simp only [hostOps3, hostOps3_1, hostOps3_2, hostOps3_3, hostOps3_4]
  after_results_simp
  rw [hh, h8, h9, h10, h11, h12, h13, h14, h15]
  rfl

end Cert.KernelIdeal.Tail

end
-- ==== Proof.KernelValue.lean ====
/-
  THE IDEALIZED KERNEL'S RESULT IS THE REFERENCE'S FUNCTION OF THE ARGUMENTS.

  The buffer contents at the boundaries of the kernel program's segments are followed from the launch memory to the
  return.  An argument, or a result no later segment writes, holds at every later boundary what it held.  Before each
  region the stretch of host operations leaves the reference's aggregate, in-degree scale column and bias row of the
  same arguments (the two programs share those operations); the region's output array is then the degree-scaled dense
  layer of the arrays it found, which is the reference's layer; after the third region the shared tail — the mean over
  the nodes, the two heads, value plus centred advantage — gives the reference's result.
-/
import proofs.«124514_j69140383531493_1_alg».proof.Proof.Gen.KernelIdeal.Frame
import proofs.«124514_j69140383531493_1_alg».proof.Proof.Gen.ReferenceIdeal.Read
import proofs.«124514_j69140383531493_1_alg».proof.Proof.Region0Value
import proofs.«124514_j69140383531493_1_alg».proof.Proof.Region1Value
import proofs.«124514_j69140383531493_1_alg».proof.Proof.Region2Value
import proofs.«124514_j69140383531493_1_alg».proof.Proof.RefLayers
import proofs.«124514_j69140383531493_1_alg».proof.Proof.HostKeeps
import proofs.«124514_j69140383531493_1_alg».proof.Proof.Stretch0
import proofs.«124514_j69140383531493_1_alg».proof.Proof.Stretch1
import proofs.«124514_j69140383531493_1_alg».proof.Proof.Stretch2
import proofs.«124514_j69140383531493_1_alg».proof.Proof.Tail

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.Lib.ScaledDense

variable (m : (ℓ : Loc nD τ sig) → Buf (Elt Ideal) ℓ) (ρ : Dev nD → PrngReg) (c : Dev nD)

/-! ## What no segment up to a boundary writes holds the launch contents -/

theorem at1 (r : Ref sig .tc) (h0 : r ∉ Keeps.written0) :
    W1 m ρ c (Proc.devRef .tc r) = m ((c : Thread nD τ).loc r) :=
  (Keeps.keep0 (W0 m ρ c) r h0).trans rfl
theorem at2 (r : Ref sig .tc) (h0 : r ∉ Keeps.written0) (hr0 : ∀ w, Pipeline.arrRef spec0 w ≠ r) :
    W2 m ρ c (Proc.devRef .tc r) = m ((c : Thread nD τ).loc r) :=
  (W2_of_ne m ρ c r hr0).trans (at1 m ρ c r h0)
theorem at3 (r : Ref sig .tc) (h0 : r ∉ Keeps.written0) (hr0 : ∀ w, Pipeline.arrRef spec0 w ≠ r) (h1 : r ∉ Keeps.written1) :
    W3 m ρ c (Proc.devRef .tc r) = m ((c : Thread nD τ).loc r) :=
  (Keeps.keep1 (W2 m ρ c) r h1).trans (at2 m ρ c r h0 hr0)
theorem at4 (r : Ref sig .tc) (h0 : r ∉ Keeps.written0) (hr0 : ∀ w, Pipeline.arrRef spec0 w ≠ r) (h1 : r ∉ Keeps.written1)
    (hr1 : ∀ w, Pipeline.arrRef spec1 w ≠ r) :
    W4 m ρ c (Proc.devRef .tc r) = m ((c : Thread nD τ).loc r) :=
  (W4_of_ne m ρ c r hr1).trans (at3 m ρ c r h0 hr0 h1)
theorem at5 (r : Ref sig .tc) (h0 : r ∉ Keeps.written0) (hr0 : ∀ w, Pipeline.arrRef spec0 w ≠ r) (h1 : r ∉ Keeps.written1)
    (hr1 : ∀ w, Pipeline.arrRef spec1 w ≠ r) (h2 : r ∉ Keeps.written2) :
    W5 m ρ c (Proc.devRef .tc r) = m ((c : Thread nD τ).loc r) :=
  (Keeps.keep2 (W4 m ρ c) r h2).trans (at4 m ρ c r h0 hr0 h1 hr1)
theorem at6 (r : Ref sig .tc) (h0 : r ∉ Keeps.written0) (hr0 : ∀ w, Pipeline.arrRef spec0 w ≠ r) (h1 : r ∉ Keeps.written1)
    (hr1 : ∀ w, Pipeline.arrRef spec1 w ≠ r) (h2 : r ∉ Keeps.written2) (hr2 : ∀ w, Pipeline.arrRef spec2 w ≠ r) :
    W6 m ρ c (Proc.devRef .tc r) = m ((c : Thread nD τ).loc r) :=
  (W6_of_ne m ρ c r hr2).trans (at5 m ρ c r h0 hr0 h1 hr1 h2)

/-! ## The edge lists and the padded edge features, carried from the first stretch -/

theorem src1 : W1 m ρ c (Proc.devRef .tc main_v1) = Cert.ReferenceIdeal.Read.val_main_v1 (F := Ideal) (m ((c : Thread nD τ).loc main_arg16)) := Stretch0.srcL (W0 m ρ c)
theorem dst1 : W1 m ρ c (Proc.devRef .tc main_v2) = Cert.ReferenceIdeal.Read.val_main_v2 (F := Ideal) (m ((c : Thread nD τ).loc main_arg17)) := Stretch0.dstL (W0 m ρ c)
theorem ef1 : W1 m ρ c (Proc.devRef .tc main_v4) = Cert.ReferenceIdeal.Read.val_main_v4 (F := Ideal) (m ((c : Thread nD τ).loc main_arg1)) := Stretch0.edgeF (W0 m ρ c)
theorem src2 : W2 m ρ c (Proc.devRef .tc main_v1) = Cert.ReferenceIdeal.Read.val_main_v1 (F := Ideal) (m ((c : Thread nD τ).loc main_arg16)) :=
  (W2_of_ne m ρ c main_v1 (by decide)).trans (src1 m ρ c)
theorem dst2 : W2 m ρ c (Proc.devRef .tc main_v2) = Cert.ReferenceIdeal.Read.val_main_v2 (F := Ideal) (m ((c : Thread nD τ).loc main_arg17)) :=
  (W2_of_ne m ρ c main_v2 (by decide)).trans (dst1 m ρ c)
theorem ef2 : W2 m ρ c (Proc.devRef .tc main_v4) = Cert.ReferenceIdeal.Read.val_main_v4 (F := Ideal) (m ((c : Thread nD τ).loc main_arg1)) :=
  (W2_of_ne m ρ c main_v4 (by decide)).trans (ef1 m ρ c)
theorem src4 : W4 m ρ c (Proc.devRef .tc main_v1) = Cert.ReferenceIdeal.Read.val_main_v1 (F := Ideal) (m ((c : Thread nD τ).loc main_arg16)) :=
  (W4_of_ne m ρ c main_v1 (by decide)).trans ((Keeps.keep1 (W2 m ρ c) main_v1 (by decide)).trans (src2 m ρ c))
theorem dst4 : W4 m ρ c (Proc.devRef .tc main_v2) = Cert.ReferenceIdeal.Read.val_main_v2 (F := Ideal) (m ((c : Thread nD τ).loc main_arg17)) :=
  (W4_of_ne m ρ c main_v2 (by decide)).trans ((Keeps.keep1 (W2 m ρ c) main_v2 (by decide)).trans (dst2 m ρ c))

/-! ## The three layers -/

/-- After the first region its output buffer holds the reference's first layer. -/
theorem layer1 : W2 m ρ c (Proc.devRef .tc main_v46)
    = Cert.ReferenceIdeal.Read.val_main_v51 (F := Ideal) (m ((c : Thread nD τ).loc main_arg0)) (m ((c : Thread nD τ).loc main_arg2)) (m ((c : Thread nD τ).loc main_arg3)) (m ((c : Thread nD τ).loc main_arg16)) (m ((c : Thread nD τ).loc main_arg17)) :=
  (W2_arr m ρ c 4).trans
    ((Region0.arr_of (V1 m ρ) c _ _ _ _ (Stretch0.agg (W0 m ρ c)) (at1 m ρ c main_arg2 (by decide))
        (Stretch0.biasRow (W0 m ρ c)) (Stretch0.scale (W0 m ρ c))).trans
      (Cert.ReferenceIdeal.Layers.layer1 (m ((c : Thread nD τ).loc main_arg0)) (m ((c : Thread nD τ).loc main_arg2)) (m ((c : Thread nD τ).loc main_arg3)) (m ((c : Thread nD τ).loc main_arg16)) (m ((c : Thread nD τ).loc main_arg17)) shapeCasts_S11_S1x11).symm)

/-- After the second region its output buffer holds the reference's second layer. -/
theorem layer2 : W4 m ρ c (Proc.devRef .tc main_v89)
    = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg16)) (m ((c : Thread nD τ).loc main_arg17)) :=
  (W4_arr m ρ c 4).trans
    ((Region1.arr_of (V3 m ρ) c _ _ _ _
        (Stretch1.agg (W2 m ρ c) (m ((c : Thread nD τ).loc main_arg0)) (m ((c : Thread nD τ).loc main_arg1)) (m ((c : Thread nD τ).loc main_arg2)) (m ((c : Thread nD τ).loc main_arg3)) (m ((c : Thread nD τ).loc main_arg16)) (m ((c : Thread nD τ).loc main_arg17)) (layer1 m ρ c) (src2 m ρ c) (dst2 m ρ c) (ef2 m ρ c))
        (at3 m ρ c main_arg4 (by decide) (by decide) (by decide))
        ((Stretch1.biasRow (W2 m ρ c)).trans (congrArg (fun x => shapeCast S1x512 x shapeCasts_S512_S1x512)
          (at2 m ρ c main_arg5 (by decide) (by decide))))
        (Stretch1.scale (W2 m ρ c) (m ((c : Thread nD τ).loc main_arg17)) (dst2 m ρ c))).trans
      (Cert.ReferenceIdeal.Layers.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg16)) (m ((c : Thread nD τ).loc main_arg17)) shapeCasts_S512_S1x512).symm)

/-- After the third region its output buffer holds the reference's third layer. -/
theorem layer3 : W6 m ρ c (Proc.devRef .tc main_v131)
    = Cert.ReferenceIdeal.Read.val_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17)) :=
  (W6_arr m ρ c 4).trans
    ((Region2.arr_of (V5 m ρ) c _ _ _ _
        (Stretch2.agg (W4 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg16)) (m ((c : Thread nD τ).loc main_arg17)) (layer2 m ρ c) (src4 m ρ c) (dst4 m ρ c))
        (at5 m ρ c main_arg6 (by decide) (by decide) (by decide) (by decide) (by decide))
        ((Stretch2.biasRow (W4 m ρ c)).trans (congrArg (fun x => shapeCast S1x1024 x shapeCasts_S1024_S1x1024)
          (at4 m ρ c main_arg7 (by decide) (by decide) (by decide) (by decide))))
        (Stretch2.scale (W4 m ρ c) (m ((c : Thread nD τ).loc main_arg17)) (dst4 m ρ c))).trans
      (Cert.ReferenceIdeal.Layers.layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17)) shapeCasts_S1024_S1x1024).symm)

/-! ## The result -/

/-- THE RESULT BUFFER at the last boundary is the reference's function of the argument arrays. -/
theorem result : W11 m ρ c (Proc.devRef .tc main_v155)
    = Cert.ReferenceIdeal.Read.val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  Tail.result (W6 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (layer3 m ρ c)
    (at6 m ρ c main_arg8 (by decide) (by decide) (by decide) (by decide) (by decide) (by decide))
    (at6 m ρ c main_arg9 (by decide) (by decide) (by decide) (by decide) (by decide) (by decide))
    (at6 m ρ c main_arg10 (by decide) (by decide) (by decide) (by decide) (by decide) (by decide))
    (at6 m ρ c main_arg11 (by decide) (by decide) (by decide) (by decide) (by decide) (by decide))
    (at6 m ρ c main_arg12 (by decide) (by decide) (by decide) (by decide) (by decide) (by decide))
    (at6 m ρ c main_arg13 (by decide) (by decide) (by decide) (by decide) (by decide) (by decide))
    (at6 m ρ c main_arg14 (by decide) (by decide) (by decide) (by decide) (by decide) (by decide))
    (at6 m ρ c main_arg15 (by decide) (by decide) (by decide) (by decide) (by decide) (by decide))

end Cert.KernelIdeal.Chain

end
-- ==== Proof.lean ====
/-
  A three-layer graph convolution with a dueling head: the row-tiled kernel against the plain reference, over the
  extended reals.

  Both programs add a self loop to every node, and in each of three layers scale the node features by
  out-degree^(-1/2), gather them along the edges (times the edge features in the second layer), sum them into the
  destination nodes, and then apply

      h (r, c) = (Σ_k agg (r, k) · W (k, c)) · in-degree(r)^(-1/2) + b (c),

  rectified in the first two layers; they end with the mean over the nodes, a value head and an advantage head, and
  value + (advantage − mean advantage).  The reference multiplies by W AFTER aggregating in every layer (each weight matrix
  has fewer rows than columns), as the kernel does.  The kernel computes the displayed step in a region that tiles the
  50000 rows in 25 blocks of 2000; everything else is the same host operations in both programs.

  * The step is local to a row, so a block of the step is the step of the block: each region's output array is the step
    of the whole arrays it found (Region0Value, Region1Value, Region2Value, over LibScaledDense).
  * The reference's dot_general, scale, bias and rectifier stages are the same function index by index (RefLayers).
  * The shared host operations carry equal inputs to equal outputs (Stretch0, Stretch1, Stretch2, Tail; HostKeeps for
    what a stretch does not touch), so by induction along the program the kernel's result buffer holds the reference's
    function of the arguments (KernelValue), read off the kernel's run with its result named (KernelRun).

  Nothing is rearranged across a sum or cancelled, so no finiteness of the inputs is used.  The idealization rewrote no
  operation, so the kernel's idealized text is its own text read over the extended reals.
-/
import proofs.«124514_j69140383531493_1_alg».proof.Defs
import proofs.«124514_j69140383531493_1_alg».proof.Proof.Gen.Kernel
import proofs.«124514_j69140383531493_1_alg».proof.Proof.Gen.Kernel.Frame
import proofs.«124514_j69140383531493_1_alg».proof.Proof.Gen.KernelIdeal
import proofs.«124514_j69140383531493_1_alg».proof.Proof.Gen.KernelIdeal.Frame
import proofs.«124514_j69140383531493_1_alg».proof.Proof.Gen.ReferenceIdeal
import proofs.«124514_j69140383531493_1_alg».proof.Proof.Gen.Pre_finite_inputs
import proofs.«124514_j69140383531493_1_alg».proof.Proof.Gen.ReferenceIdeal.Run
import proofs.«124514_j69140383531493_1_alg».proof.Proof.Gen.ReferenceIdeal.Read
import proofs.«124514_j69140383531493_1_alg».proof.Proof.KernelRun
import proofs.«124514_j69140383531493_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs, and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result: the kernel's result buffer holds
    the reference's function of its arguments, and the arguments are equal. -/
theorem algebraic : Cert.algebraic_KernelIdeal_ReferenceIdeal := by
  intro m ρ m' ρ' _ hagree
  refine ⟨_, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17⟩ := hagree c
  have hr := Cert.ReferenceIdeal.Read.val_main_v169_eq (F := Ideal) m' c
  rw [e0, e1, e2, e3, e4, e5, e6, e7, e8, e9, e10, e11, e12, e13, e14, e15, e16, e17] at hr
  exact hr.trans (Cert.KernelIdeal.Chain.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
